-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x2 : Shape := ⟨3, ![2048, 64, 2]⟩
abbrev S64x2x2048x128 : Shape := ⟨4, ![64, 2, 2048, 128]⟩
abbrev S512x2 : Shape := ⟨2, ![512, 2]⟩
abbrev S512x128 : Shape := ⟨2, ![512, 128]⟩
abbrev S512 : Shape := ⟨1, ![512]⟩
abbrev S_ : Shape := ⟨0, ![]⟩

class Facts : Prop where
  bcast_S_S2048x64x2 : S_.BroadcastsInDim S2048x64x2 (![] : Fin 0 → Fin S2048x64x2.rank)
  reducesTo_S2048x64x2_S_d0_1_2 : S2048x64x2.ReducesTo [0, 1, 2] S_
  h_S_ : 0 < S_.numel
  bcast_S_S64x2x2048x128 : S_.BroadcastsInDim S64x2x2048x128 (![] : Fin 0 → Fin S64x2x2048x128.rank)
  reducesTo_S64x2x2048x128_S_d0_1_2_3 : S64x2x2048x128.ReducesTo [0, 1, 2, 3] S_
  bcast_S_S512x2 : S_.BroadcastsInDim S512x2 (![] : Fin 0 → Fin S512x2.rank)
  reducesTo_S512x2_S_d0_1 : S512x2.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x128 .f32) (main_arg8 : FVec F S512x128 .f32) (main_arg9 : FVec F S512 .f32) (main_arg10 : FVec F S512 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S512x128 .f32 := Host.absf main_arg8
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512x128 .f32) (main_arg5 : FVec F S512 .f32) (main_arg6 : FVec F S512 .f32) (main_arg7 : FVec F S512x128 .f32) (main_arg8 : FVec F S512x128 .f32) (main_arg9 : FVec F S512 .f32) (main_arg10 : FVec F S512 .f32) (main_v13 : IVec S_ 1) (main_v16 : IVec S512x2 1) : IVec S_ 1 :=
  let main_c_5 : IVec S_ 1 := constantI S_ 1 1#1
  let main_v17 : IVec S_ 1 := (fun x v => Host.reduce IntOp.andi x v reducesTo_S512x2_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x64x2 .f32) (main_arg1 : FVec F S64x2x2048x128 .f32) (main_arg2 : FVec F S64x2x2048x128 .f32) (main_arg3 : FVec F S512x2 .f32) (main_arg4 : FVec F S512x128 .f32) (main_arg5 : FVec F S512 .f32) (main_arg6 : FVec F S512 .f32) (main_arg7 : FVec F S512x128 .f32) (main_arg8 : FVec F S512x128 .f32) (main_arg9 : FVec F S512 .f32) (main_arg10 : FVec F S512 .f32) : IVec S_ 1 :=
  let main_v0 : FVec F S2048x64x2 .f32 := Host.absf main_arg0
  let main_cst : FVec F S_ .f32 := constant S_ .f32 0x7F800000#32
  let main_v1 : FVec F S2048x64x2 .f32 := broadcastInDim S2048x64x2 ![] bcast_S_S2048x64x2 main_cst
  let main_v2 : IVec S2048x64x2 1 := cmpf .olt main_v0 main_v1
  let main_c : IVec S_ 1 := constantI S_ 1 1#1
  let main_v3 : IVec S_ 1 := (fun x v => Host.reduce IntOp.andi x v reducesTo_S2048x64x2_S_d0_1_2 h_S_) main_v2 main_c
  let main_v4 : FVec F S64x2x2048x128 .f32 := Host.absf main_arg1
  let main_cst_0 : FVec F S_ .f32 := constant S_ .f32 0x7F800000#32
  let main_v5 : FVec F S64x2x2048x128 .f32 := broadcastInDim S64x2x2048x128 ![] bcast_S_S64x2x2048x128 main_cst_0
  let main_v6 : IVec S64x2x2048x128 1 := cmpf .olt main_v4 main_v5
  let main_c_1 : IVec S_ 1 := constantI S_ 1 1#1
  let main_v7 : IVec S_ 1 := (fun x v => Host.reduce IntOp.andi x v reducesTo_S64x2x2048x128_S_d0_1_2_3 h_S_) main_v6 main_c_1
  let main_v8 : IVec S_ 1 := andi main_v3 main_v7
  let main_v9 : FVec F S64x2x2048x128 .f32 := Host.absf main_arg2
  let main_cst_2 : FVec F S_ .f32 := constant S_ .f32 0x7F800000#32
  let main_v10 : FVec F S64x2x2048x128 .f32 := broadcastInDim S64x2x2048x128 ![] bcast_S_S64x2x2048x128 main_cst_2
  let main_v11 : IVec S64x2x2048x128 1 := cmpf .olt main_v9 main_v10
  let main_c_3 : IVec S_ 1 := constantI S_ 1 1#1
  let main_v12 : IVec S_ 1 := (fun x v => Host.reduce IntOp.andi x v reducesTo_S64x2x2048x128_S_d0_1_2_3 h_S_) main_v11 main_c_3
  let main_v13 : IVec S_ 1 := andi main_v8 main_v12
  let main_v14 : FVec F S512x2 .f32 := Host.absf main_arg3
  let main_cst_4 : FVec F S_ .f32 := constant S_ .f32 0x7F800000#32
  let main_v15 : FVec F S512x2 .f32 := broadcastInDim S512x2 ![] bcast_S_S512x2 main_cst_4
  let main_v16 : IVec S512x2 1 := cmpf .olt main_v14 main_v15
  fn_part1 (F := F) main_arg4 main_arg5 main_arg6 main_arg7 main_arg8 main_arg9 main_arg10 main_v13 main_v16
-- ==== Kernel.lean ====
abbrev S2048x64x2 : Shape := ⟨3, ![2048, 64, 2]⟩
abbrev S64x2x2048x128 : Shape := ⟨4, ![64, 2, 2048, 128]⟩
abbrev S512x2 : Shape := ⟨2, ![512, 2]⟩
abbrev S512x128 : Shape := ⟨2, ![512, 128]⟩
abbrev S512 : Shape := ⟨1, ![512]⟩
abbrev S64x2048x2 : Shape := ⟨3, ![64, 2048, 2]⟩
abbrev S2048x8192 : Shape := ⟨2, ![2048, 8192]⟩
abbrev S1x1024x2 : Shape := ⟨3, ![1, 1024, 2]⟩
abbrev S1x2x1024x128 : Shape := ⟨4, ![1, 2, 1024, 128]⟩
abbrev S1024x128 : Shape := ⟨2, ![1024, 128]⟩
abbrev S1024x2 : Shape := ⟨2, ![1024, 2]⟩
abbrev S1x1x1024x128 : Shape := ⟨4, ![1, 1, 1024, 128]⟩
abbrev S2x512 : Shape := ⟨2, ![2, 512]⟩
abbrev S1024x512 : Shape := ⟨2, ![1024, 512]⟩
abbrev S128x512 : Shape := ⟨2, ![128, 512]⟩
abbrev S1x512 : Shape := ⟨2, ![1, 512]⟩
abbrev S2048x64x128 : Shape := ⟨3, ![2048, 64, 128]⟩

abbrev nBuf : Space → Nat
  | .hbm => 16
  | .vmem => 20
  | .smem => 0
  | _ => 0

abbrev bufTy : (tb : Table) → Fin (tcTables nBuf tb) → BufTy
  | .hbm, ⟨0, _⟩ => ⟨S2048x64x2, .f32⟩
  | .hbm, ⟨1, _⟩ => ⟨S64x2x2048x128, .f32⟩
  | .hbm, ⟨2, _⟩ => ⟨S64x2x2048x128, .f32⟩
  | .hbm, ⟨3, _⟩ => ⟨S512x2, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S512x128, .f32⟩
  | .hbm, ⟨8, _⟩ => ⟨S512x128, .f32⟩
  | .hbm, ⟨9, _⟩ => ⟨S512, .f32⟩
  | .hbm, ⟨10, _⟩ => ⟨S512, .f32⟩
  | .hbm, ⟨11, _⟩ => ⟨S64x2048x2, .f32⟩
  | .hbm, ⟨12, _⟩ => ⟨S64x2x2048x128, .f32⟩
  | .hbm, ⟨13, _⟩ => ⟨S64x2x2048x128, .f32⟩
  | .hbm, ⟨14, _⟩ => ⟨S2048x8192, .f32⟩
  | .hbm, ⟨15, _⟩ => ⟨S2048x64x128, .f32⟩
  | .local _ .vmem, ⟨0, _⟩ => ⟨S1x1024x2, .f32⟩
  | .local _ .vmem, ⟨1, _⟩ => ⟨S1x1024x2, .f32⟩
  | .local _ .vmem, ⟨2, _⟩ => ⟨S1x2x1024x128, .f32⟩
  | .local _ .vmem, ⟨3, _⟩ => ⟨S1x2x1024x128, .f32⟩
  | .local _ .vmem, ⟨4, _⟩ => ⟨S1x2x1024x128, .f32⟩
  | .local _ .vmem, ⟨5, _⟩ => ⟨S1x2x1024x128, .f32⟩
  | .local _ .vmem, ⟨6, _⟩ => ⟨S512x2, .f32⟩
  | .local _ .vmem, ⟨7, _⟩ => ⟨S512x128, .f32⟩
  | .local _ .vmem, ⟨8, _⟩ => ⟨S512, .f32⟩
  | .local _ .vmem, ⟨9, _⟩ => ⟨S512, .f32⟩
  | .local _ .vmem, ⟨10, _⟩ => ⟨S512x128, .f32⟩
  | .local _ .vmem, ⟨11, _⟩ => ⟨S512x128, .f32⟩
  | .local _ .vmem, ⟨12, _⟩ => ⟨S512, .f32⟩
  | .local _ .vmem, ⟨13, _⟩ => ⟨S512, .f32⟩
  | .local _ .vmem, ⟨14, _⟩ => ⟨S1x2x1024x128, .f32⟩
  | .local _ .vmem, ⟨15, _⟩ => ⟨S1x2x1024x128, .f32⟩
  | .local _ .vmem, ⟨16, _⟩ => ⟨S1x2x1024x128, .f32⟩
  | .local _ .vmem, ⟨17, _⟩ => ⟨S1x2x1024x128, .f32⟩
  | .local _ .vmem, ⟨18, _⟩ => ⟨S1024x128, .f32⟩
  | .local _ .vmem, ⟨19, _⟩ => ⟨S1024x128, .f32⟩
  | _, _ => ⟨S2048x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  transposes_S2048x64x2_S64x2048x2_1_0_2 : S2048x64x2.Transposes [1, 0, 2] S64x2048x2
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  bitsLt_bf16_f32 : FTy.bits .bf16 < FTy.bits .f32
  inb_S1x2x1024x128_S1x1x1024x128_0_0_0_0 : ∀ a, (![0, 0, 0, 0] : Fin 4 → Nat) a + S1x1x1024x128.size a ≤ S1x2x1024x128.size a
  h_S1x1x1024x128 : 0 < S1x1x1024x128.numel
  shapeCasts_S1x1x1024x128_S1024x128 : S1x1x1024x128.ShapeCasts S1024x128
  inb_S512x2_S512x2_0_0 : ∀ a, (![0, 0] : Fin 2 → Nat) a + S512x2.size a ≤ S512x2.size a
  h_S512x2 : 0 < S512x2.numel
  inb_S512x128_S512x128_0_0 : ∀ a, (![0, 0] : Fin 2 → Nat) a + S512x128.size a ≤ S512x128.size a
  h_S512x128 : 0 < S512x128.numel
  inb_S512_S512_0 : ∀ a, (![0] : Fin 1 → Nat) a + S512.size a ≤ S512.size a
  h_S512 : 0 < S512.numel
  transposes_S512x2_p1_0_S2x512 : S512x2.Transposes [1, 0] S2x512
  transposes_S512x128_p1_0_S128x512 : S512x128.Transposes [1, 0] S128x512
  shapeCasts_S512_S1x512 : S512.ShapeCasts S1x512
  broadcasts_S1x512_S1024x512 : S1x512.Broadcasts S1024x512
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  inb_S1x2x1024x128_S1x1x1024x128_0_1_0_0 : ∀ a, (![0, 1, 0, 0] : Fin 4 → Nat) a + S1x1x1024x128.size a ≤ S1x2x1024x128.size a
  shapeCasts_S1024x128_S1x1x1024x128 : S1024x128.ShapeCasts S1x1x1024x128
  inb_S1024x128_S1024x128_0_0 : ∀ a, (![0, 0] : Fin 2 → Nat) a + S1024x128.size a ≤ S1024x128.size a
  h_S1024x128 : 0 < S1024x128.numel
  shapeCasts_S2048x8192_S2048x64x128 : S2048x8192.ShapeCasts S2048x64x128
  dot_S1024x2_S2x512_S1024x512_1_0_0_1_n_n_wf : DotDims.WF S1024x2 S2x512 S1024x512 [1] [0] [0] [1] [] []
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2.size a ≤ S64x2048x2.size a
  hwx0_0 : ∀ i : grid0.Coords, EltTy.bits .f32 = 32 ∨ (Rect.block (s := S64x2048x2) S1x1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1024x128.size a ≤ S64x2x2048x128.size a
  hwx0_1 : ∀ i : grid0.Coords, EltTy.bits .f32 = 32 ∨ (Rect.block (s := S64x2x2048x128) S1x2x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x1024x128.size a ≤ S64x2x2048x128.size a
  hwx0_2 : ∀ i : grid0.Coords, EltTy.bits .f32 = 32 ∨ (Rect.block (s := S64x2x2048x128) S1x2x1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2.size a ≤ S512x2.size a
  hwx0_3 : ∀ i : grid0.Coords, EltTy.bits .f32 = 32 ∨ (Rect.block (s := S512x2) S512x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .f32 = 32 ∨ (Rect.block (s := S512x128) S512x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S512x128.size a
  hwx0_8 : ∀ i : grid0.Coords, EltTy.bits .f32 = 32 ∨ (Rect.block (s := S512x128) S512x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x2x1024x128.size a ≤ S64x2x2048x128.size a
  hwx0_11 : ∀ i : grid0.Coords, EltTy.bits .f32 = 32 ∨ (Rect.block (s := S64x2x2048x128) S1x2x1024x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x2x1024x128.size a ≤ S64x2x2048x128.size a
  hwx0_12 : ∀ i : grid0.Coords, EltTy.bits .f32 = 32 ∨ (Rect.block (s := S64x2x2048x128) S1x2x1024x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x128.size a ≤ S2048x8192.size a
  hwx0_13 : ∀ i : grid0.Coords, EltTy.bits .f32 = 32 ∨ (Rect.block (s := S2048x8192) S1024x128.size (cc0_transform_13 i) (hinb0_13 i)).WholeWords (EltTy.packing .f32)

variable [Facts₀]

def dot_S1024x2_S2x512_S1024x512_1_0_0_1_n_n : DotDims S1024x2 S2x512 S1024x512 where
  lhsContracting := [1]
  rhsContracting := [0]
  lhsNonContracting := [0]
  rhsNonContracting := [1]
  lhsBatch := []
  rhsBatch := []
  wf := dot_S1024x2_S2x512_S1024x512_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v0) S1x1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1_0) S1x2x1024x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v1_1) S1x2x1024x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v1_2) S1024x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S2048x64x2 : Shape := ⟨3, ![2048, 64, 2]⟩
abbrev S64x2x2048x128 : Shape := ⟨4, ![64, 2, 2048, 128]⟩
abbrev S512x2 : Shape := ⟨2, ![512, 2]⟩
abbrev S512x128 : Shape := ⟨2, ![512, 128]⟩
abbrev S512 : Shape := ⟨1, ![512]⟩
abbrev S64x2048x2 : Shape := ⟨3, ![64, 2048, 2]⟩
abbrev S131072x2 : Shape := ⟨2, ![131072, 2]⟩
abbrev S64x1x2048x128 : Shape := ⟨4, ![64, 1, 2048, 128]⟩
abbrev S64x2048x128 : Shape := ⟨3, ![64, 2048, 128]⟩
abbrev S131072x128 : Shape := ⟨2, ![131072, 128]⟩
abbrev S2x512 : Shape := ⟨2, ![2, 512]⟩
abbrev S131072x512 : Shape := ⟨2, ![131072, 512]⟩
abbrev S128x512 : Shape := ⟨2, ![128, 512]⟩
abbrev S1x512 : Shape := ⟨2, ![1, 512]⟩
abbrev S_ : Shape := ⟨0, ![]⟩
abbrev S2048x64x128 : Shape := ⟨3, ![2048, 64, 128]⟩

abbrev nBuf : Space → Nat
  | .hbm => 123
  | .vmem => 0
  | .smem => 0
  | _ => 0

abbrev bufTy : (tb : Table) → Fin (tcTables nBuf tb) → BufTy
  | .hbm, ⟨0, _⟩ => ⟨S2048x64x2, .f32⟩
  | .hbm, ⟨1, _⟩ => ⟨S64x2x2048x128, .f32⟩
  | .hbm, ⟨2, _⟩ => ⟨S64x2x2048x128, .f32⟩
  | .hbm, ⟨3, _⟩ => ⟨S512x2, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S512x128, .f32⟩
  | .hbm, ⟨8, _⟩ => ⟨S512x128, .f32⟩
  | .hbm, ⟨9, _⟩ => ⟨S512, .f32⟩
  | .hbm, ⟨10, _⟩ => ⟨S512, .f32⟩
  | .hbm, ⟨11, _⟩ => ⟨S64x2048x2, .f32⟩
  | .hbm, ⟨12, _⟩ => ⟨S131072x2, .f32⟩
  | .hbm, ⟨13, _⟩ => ⟨S64x1x2048x128, .f32⟩
  | .hbm, ⟨14, _⟩ => ⟨S64x2048x128, .f32⟩
  | .hbm, ⟨15, _⟩ => ⟨S131072x128, .f32⟩
  | .hbm, ⟨16, _⟩ => ⟨S64x1x2048x128, .f32⟩
  | .hbm, ⟨17, _⟩ => ⟨S64x2048x128, .f32⟩
  | .hbm, ⟨18, _⟩ => ⟨S131072x128, .f32⟩
  | .hbm, ⟨19, _⟩ => ⟨S2x512, .f32⟩
  | .hbm, ⟨20, _⟩ => ⟨S131072x512, .f32⟩
  | .hbm, ⟨21, _⟩ => ⟨S128x512, .f32⟩
  | .hbm, ⟨22, _⟩ => ⟨S131072x512, .f32⟩
  | .hbm, ⟨23, _⟩ => ⟨S131072x512, .f32⟩
  | .hbm, ⟨24, _⟩ => ⟨S512, .f32⟩
  | .hbm, ⟨25, _⟩ => ⟨S1x512, .f32⟩
  | .hbm, ⟨26, _⟩ => ⟨S131072x512, .f32⟩
  | .hbm, ⟨27, _⟩ => ⟨S131072x512, .f32⟩
  | .hbm, ⟨28, _⟩ => ⟨S131072x128, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S131072x128, .f32⟩
  | .hbm, ⟨33, _⟩ => ⟨S131072x128, .f32⟩
  | .hbm, ⟨34, _⟩ => ⟨S_, .f32⟩
  | .hbm, ⟨35, _⟩ => ⟨S131072x128, .f32⟩
  | .hbm, ⟨36, _⟩ => ⟨S131072x128, .f32⟩
  | .hbm, ⟨37, _⟩ => ⟨S_, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S131072x128, .f32⟩
  | .hbm, ⟨42, _⟩ => ⟨S131072x128, .f32⟩
  | .hbm, ⟨43, _⟩ => ⟨S_, .f32⟩
  | .hbm, ⟨44, _⟩ => ⟨S131072x128, .f32⟩
  | .hbm, ⟨45, _⟩ => ⟨S131072x128, .f32⟩
  | .hbm, ⟨46, _⟩ => ⟨S_, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S131072x128, .f32⟩
  | .hbm, ⟨52, _⟩ => ⟨S131072x128, .f32⟩
  | .hbm, ⟨53, _⟩ => ⟨S131072x128, .f32⟩
  | .hbm, ⟨54, _⟩ => ⟨S_, .f32⟩
  | .hbm, ⟨55, _⟩ => ⟨S131072x128, .f32⟩
  | .hbm, ⟨56, _⟩ => ⟨S131072x128, .f32⟩
  | .hbm, ⟨57, _⟩ => ⟨S_, .f32⟩
  | .hbm, ⟨58, _⟩ => ⟨S131072x128, .f32⟩
  | .hbm, ⟨59, _⟩ => ⟨S131072x128, .f32⟩
  | .hbm, ⟨60, _⟩ => ⟨S131072x128, .f32⟩
  | .hbm, ⟨61, _⟩ => ⟨S131072x128, .f32⟩
  | .hbm, ⟨62, _⟩ => ⟨S64x1x2048x128, .f32⟩
  | .hbm, ⟨63, _⟩ => ⟨S64x2048x128, .f32⟩
  | .hbm, ⟨64, _⟩ => ⟨S131072x128, .f32⟩
  | .hbm, ⟨65, _⟩ => ⟨S64x1x2048x128, .f32⟩
  | .hbm, ⟨66, _⟩ => ⟨S64x2048x128, .f32⟩
  | .hbm, ⟨67, _⟩ => ⟨S131072x128, .f32⟩
  | .hbm, ⟨68, _⟩ => ⟨S128x512, .f32⟩
  | .hbm, ⟨69, _⟩ => ⟨S131072x512, .f32⟩
  | .hbm, ⟨70, _⟩ => ⟨S128x512, .f32⟩
  | .hbm, ⟨71, _⟩ => ⟨S131072x512, .f32⟩
  | .hbm, ⟨72, _⟩ => ⟨S131072x512, .f32⟩
  | .hbm, ⟨73, _⟩ => ⟨S512, .f32⟩
  | .hbm, ⟨74, _⟩ => ⟨S1x512, .f32⟩
  | .hbm, ⟨75, _⟩ => ⟨S131072x512, .f32⟩
  | .hbm, ⟨76, _⟩ => ⟨S131072x512, .f32⟩
  | .hbm, ⟨77, _⟩ => ⟨S131072x128, .f32⟩
  | .hbm, ⟨78, _⟩ => ⟨S131072x128, .f32⟩
  | .hbm, ⟨79, _⟩ => ⟨S131072x128, .f32⟩
  | .hbm, ⟨80, _⟩ => ⟨S131072x128, .f32⟩
  | .hbm, ⟨81, _⟩ => ⟨S131072x128, .f32⟩
  | .hbm, ⟨82, _⟩ => ⟨S131072x128, .f32⟩
  | .hbm, ⟨83, _⟩ => ⟨S_, .f32⟩
  | .hbm, ⟨84, _⟩ => ⟨S131072x128, .f32⟩
  | .hbm, ⟨85, _⟩ => ⟨S131072x128, .f32⟩
  | .hbm, ⟨86, _⟩ => ⟨S_, .f32⟩
  | .hbm, ⟨87, _⟩ => ⟨S131072x128, .f32⟩
  | .hbm, ⟨88, _⟩ => ⟨S131072x128, .f32⟩
  | .hbm, ⟨89, _⟩ => ⟨S131072x128, .f32⟩
  | .hbm, ⟨90, _⟩ => ⟨S131072x128, .f32⟩
  | .hbm, ⟨91, _⟩ => ⟨S131072x128, .f32⟩
  | .hbm, ⟨92, _⟩ => ⟨S_, .f32⟩
  | .hbm, ⟨93, _⟩ => ⟨S131072x128, .f32⟩
  | .hbm, ⟨94, _⟩ => ⟨S131072x128, .f32⟩
  | .hbm, ⟨95, _⟩ => ⟨S_, .f32⟩
  | .hbm, ⟨96, _⟩ => ⟨S131072x128, .f32⟩
  | .hbm, ⟨97, _⟩ => ⟨S131072x128, .f32⟩
  | .hbm, ⟨98, _⟩ => ⟨S131072x128, .f32⟩
  | .hbm, ⟨99, _⟩ => ⟨S131072x128, .f32⟩
  | .hbm, ⟨100, _⟩ => ⟨S131072x128, .f32⟩
  | .hbm, ⟨101, _⟩ => ⟨S131072x128, .f32⟩
  | .hbm, ⟨102, _⟩ => ⟨S131072x128, .f32⟩
  | .hbm, ⟨103, _⟩ => ⟨S_, .f32⟩
  | .hbm, ⟨104, _⟩ => ⟨S131072x128, .f32⟩
  | .hbm, ⟨105, _⟩ => ⟨S131072x128, .f32⟩
  | .hbm, ⟨106, _⟩ => ⟨S_, .f32⟩
  | .hbm, ⟨107, _⟩ => ⟨S131072x128, .f32⟩
  | .hbm, ⟨108, _⟩ => ⟨S131072x128, .f32⟩
  | .hbm, ⟨109, _⟩ => ⟨S131072x128, .f32⟩
  | .hbm, ⟨110, _⟩ => ⟨S131072x128, .f32⟩
  | .hbm, ⟨111, _⟩ => ⟨S64x2048x128, .f32⟩
  | .hbm, ⟨112, _⟩ => ⟨S2048x64x128, .f32⟩
  | .hbm, ⟨113, _⟩ => ⟨S64x2048x128, .f32⟩
  | .hbm, ⟨114, _⟩ => ⟨S64x2048x128, .f32⟩
  | .hbm, ⟨115, _⟩ => ⟨S64x1x2048x128, .f32⟩
  | .hbm, ⟨116, _⟩ => ⟨S64x1x2048x128, .f32⟩
  | .hbm, ⟨117, _⟩ => ⟨S64x2x2048x128, .f32⟩
  | .hbm, ⟨118, _⟩ => ⟨S64x2048x128, .f32⟩
  | .hbm, ⟨119, _⟩ => ⟨S64x2048x128, .f32⟩
  | .hbm, ⟨120, _⟩ => ⟨S64x1x2048x128, .f32⟩
  | .hbm, ⟨121, _⟩ => ⟨S64x1x2048x128, .f32⟩
  | .hbm, ⟨122, _⟩ => ⟨S64x2x2048x128, .f32⟩
  | _, _ => ⟨S2048x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_5 : Ref sig .tc := ⟨.hbm, 83, rfl⟩
abbrev main_v66 : Ref sig .tc := ⟨.hbm, 84, rfl⟩
abbrev main_v67 : Ref sig .tc := ⟨.hbm, 85, rfl⟩
abbrev main_cst_6 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_7 : Ref sig .tc := ⟨.hbm, 92, rfl⟩
abbrev main_v73 : Ref sig .tc := ⟨.hbm, 93, rfl⟩
abbrev main_v74 : Ref sig .tc := ⟨.hbm, 94, rfl⟩
abbrev main_cst_8 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_9 : Ref sig .tc := ⟨.hbm, 103, rfl⟩
abbrev main_v82 : Ref sig .tc := ⟨.hbm, 104, rfl⟩
abbrev main_v83 : Ref sig .tc := ⟨.hbm, 105, rfl⟩
abbrev main_cst_10 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩

abbrev nD : Nat := 1
abbrev τ : Topo := Topo.v7x

variable {F : FTy → Type} [FloatOps F]

class Facts₀ : Prop where
  transposes_S2048x64x2_S64x2048x2_1_0_2 : S2048x64x2.Transposes [1, 0, 2] S64x2048x2
  shapeCasts_S64x2048x2_S131072x2 : S64x2048x2.ShapeCasts S131072x2
  slices_S64x2x2048x128_S64x1x2048x128_0_0_0_0 : S64x2x2048x128.Slices ![0, 0, 0, 0] S64x1x2048x128
  shapeCasts_S64x1x2048x128_S64x2048x128 : S64x1x2048x128.ShapeCasts S64x2048x128
  shapeCasts_S64x2048x128_S131072x128 : S64x2048x128.ShapeCasts S131072x128
  transposes_S512x2_S2x512_1_0 : S512x2.Transposes [1, 0] S2x512
  transposes_S512x128_S128x512_1_0 : S512x128.Transposes [1, 0] S128x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  slices_S64x2x2048x128_S64x1x2048x128_0_1_0_0 : S64x2x2048x128.Slices ![0, 1, 0, 0] S64x1x2048x128
  shapeCasts_S131072x128_S64x2048x128 : S131072x128.ShapeCasts S64x2048x128
  transposes_S64x2048x128_S2048x64x128_1_0_2 : S64x2048x128.Transposes [1, 0, 2] S2048x64x128
  bcast_S64x2048x128_S64x1x2048x128_0_2_3 : S64x2048x128.BroadcastsInDim S64x1x2048x128 (![0, 2, 3] : Fin 3 → Fin S64x1x2048x128.rank)
  concatenates_S64x1x2048x128_S64x1x2048x128_S64x2x2048x128_d1 : Shape.Concatenates [S64x1x2048x128, S64x1x2048x128] S64x2x2048x128 1
  dot_S131072x2_S2x512_S131072x512_1_0_0_1_n_n_wf : DotDims.WF S131072x2 S2x512 S131072x512 [1] [0] [0] [1] [] []
  dot_S131072x128_S128x512_S131072x512_1_0_0_1_n_n_wf : DotDims.WF S131072x128 S128x512 S131072x512 [1] [0] [0] [1] [] []

variable [Facts₀]

def dot_S131072x2_S2x512_S131072x512_1_0_0_1_n_n : DotDims S131072x2 S2x512 S131072x512 where
  lhsContracting := [1]
  rhsContracting := [0]
  lhsNonContracting := [0]
  rhsNonContracting := [1]
  lhsBatch := []
  rhsBatch := []
  wf := dot_S131072x2_S2x512_S131072x512_1_0_0_1_n_n_wf
def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.Spec.lean ====
/-
  A two-layer LSTM step, one row at a time, on the extended reals.

  One row of the batch carries an input x (2 numbers), and for each of the two layers a hidden state h and a cell
  state c (128 numbers each). A layer's four gates are the 512 numbers
      g q = (∑ k, x k · Wi q k + ∑ k, h k · Wh q k) + (bi q + bh q),
  cut into four runs of 128: input gate i = g[0:128], forget gate f = g[128:256], candidate g[256:384], output gate
  o = g[384:512]. The new cell state is  σ(f)·c + σ(i)·tanh(candidate)  and the new hidden state  σ(o)·tanh(new cell),
  σ the logistic function. Layer 1 takes layer 0's new hidden state as its input.

  The arrays: X[b, p, k] (2048 × 64 × 2), H0 and C0[p, l, b, j] (64 × 2 × 2048 × 128, l the layer), the weights
  W[q, k] and biases b[q]. The results: enc[b, p, j] = layer 1's new hidden state of row (p, b); hnext[p, l, b, j] and
  cnext[p, l, b, j] the new hidden and cell states of layer l.
-/
import Idealize.ShloMosaic.PureOps.Ideal
import Idealize.ShloMosaic.Lib.ValueIdx

noncomputable section

open scoped BigOperators

namespace Cert.Lstm

open Idealize.ShloMosaic Idealize.ShloMosaic.ValueIdx

/-- Where the four gates sit among a layer's 512 pre-activations. -/
def gI (j : Fin 128) : Fin 512 := ⟨0 + j.val, by have := j.isLt; omega⟩
def gF (j : Fin 128) : Fin 512 := ⟨128 + j.val, by have := j.isLt; omega⟩
def gG (j : Fin 128) : Fin 512 := ⟨256 + j.val, by have := j.isLt; omega⟩
def gO (j : Fin 128) : Fin 512 := ⟨384 + j.val, by have := j.isLt; omega⟩

/-- A layer's 512 gate pre-activations of one row: the input's and the hidden state's products with the two weight
    matrices (each row q of a matrix against the vector), plus the two biases' sum. -/
def gate {K : Nat} (x : Fin K → EReal) (h : Fin 128 → EReal) (Wi : Fin 512 → Fin K → EReal) (Wh : Fin 512 → Fin 128 → EReal)
    (bi bh : Fin 512 → EReal) (q : Fin 512) : EReal :=
  ((∑ k : Fin K, x k * Wi q k) + (∑ k : Fin 128, h k * Wh q k)) + (bi q + bh q)

/-- The new cell state from the gates and the old cell state. -/
def cellC (g : Fin 512 → EReal) (c : Fin 128 → EReal) (j : Fin 128) : EReal :=
  Ideal.logistic (g (gF j)) * c j + Ideal.logistic (g (gI j)) * Ideal.tanh (g (gG j))

/-- The new hidden state from the gates and the new cell state. -/
def cellH (g : Fin 512 → EReal) (cn : Fin 128 → EReal) (j : Fin 128) : EReal :=
  Ideal.logistic (g (gO j)) * Ideal.tanh (cn j)

/-- The eight parameter arrays, as functions of their coordinates. -/
structure Weights where
  Wih0 : Fin 512 → Fin 2 → EReal
  Whh0 : Fin 512 → Fin 128 → EReal
  bih0 : Fin 512 → EReal
  bhh0 : Fin 512 → EReal
  Wih1 : Fin 512 → Fin 128 → EReal
  Whh1 : Fin 512 → Fin 128 → EReal
  bih1 : Fin 512 → EReal
  bhh1 : Fin 512 → EReal

/-- The parameters read off their arrays (or off blocks that are the whole arrays). -/
def Weights.ofArrays (w3 : (⟨2, ![512, 2]⟩ : Shape).Idx → EReal) (w4 : (⟨2, ![512, 128]⟩ : Shape).Idx → EReal)
    (w5 w6 : (⟨1, ![512]⟩ : Shape).Idx → EReal) (w7 w8 : (⟨2, ![512, 128]⟩ : Shape).Idx → EReal)
    (w9 w10 : (⟨1, ![512]⟩ : Shape).Idx → EReal) : Weights where
  Wih0 q k := w3 (ix2 q k)
  Whh0 q k := w4 (ix2 q k)
  bih0 q := w5 (ix1 q)
  bhh0 q := w6 (ix1 q)
  Wih1 q k := w7 (ix2 q k)
  Whh1 q k := w8 (ix2 q k)
  bih1 q := w9 (ix1 q)
  bhh1 q := w10 (ix1 q)

/-! ## One row -/

/-- Layer 0's new cell state of a row. -/
def c1row (W : Weights) (x : Fin 2 → EReal) (h00 c00 : Fin 128 → EReal) : Fin 128 → EReal :=
  cellC (gate x h00 W.Wih0 W.Whh0 W.bih0 W.bhh0) c00
/-- Layer 0's new hidden state of a row. -/
def h1row (W : Weights) (x : Fin 2 → EReal) (h00 c00 : Fin 128 → EReal) : Fin 128 → EReal :=
  cellH (gate x h00 W.Wih0 W.Whh0 W.bih0 W.bhh0) (c1row W x h00 c00)
/-- Layer 1's new cell state of a row: its input is layer 0's new hidden state. -/
def c2row (W : Weights) (x : Fin 2 → EReal) (h00 c00 h01 c01 : Fin 128 → EReal) : Fin 128 → EReal :=
  cellC (gate (h1row W x h00 c00) h01 W.Wih1 W.Whh1 W.bih1 W.bhh1) c01
/-- Layer 1's new hidden state of a row. -/
def h2row (W : Weights) (x : Fin 2 → EReal) (h00 c00 h01 c01 : Fin 128 → EReal) : Fin 128 → EReal :=
  cellH (gate (h1row W x h00 c00) h01 W.Wih1 W.Whh1 W.bih1 W.bhh1) (c2row W x h00 c00 h01 c01)

/-! ## One row of a block

A block of the kernel holds 1024 rows of one p: the input block is [1, 1024, 2], a state block [1, 2, 1024, 128]. -/

/-- Row r of an input block. -/
def blkX (x0 : (⟨3, ![1, 1024, 2]⟩ : Shape).Idx → EReal) (r : Fin 1024) : Fin 2 → EReal := fun k => x0 (ix3 0 r k)
/-- Row r, layer l, of a state block. -/
def blkS (x1 : (⟨4, ![1, 2, 1024, 128]⟩ : Shape).Idx → EReal) (l : Fin 2) (r : Fin 1024) : Fin 128 → EReal :=
  fun j => x1 (ix4 0 l r j)

/-! ## The whole arrays -/

/-- The argument arrays. -/
structure Args where
  X : (⟨3, ![2048, 64, 2]⟩ : Shape).Idx → EReal
  H0 : (⟨4, ![64, 2, 2048, 128]⟩ : Shape).Idx → EReal
  C0 : (⟨4, ![64, 2, 2048, 128]⟩ : Shape).Idx → EReal
  W : Weights

/-- The argument arrays bundled, the eight parameter arrays read by coordinates. -/
def Args.ofArrays (a0 : (⟨3, ![2048, 64, 2]⟩ : Shape).Idx → EReal) (a1 a2 : (⟨4, ![64, 2, 2048, 128]⟩ : Shape).Idx → EReal)
    (w3 : (⟨2, ![512, 2]⟩ : Shape).Idx → EReal) (w4 : (⟨2, ![512, 128]⟩ : Shape).Idx → EReal)
    (w5 w6 : (⟨1, ![512]⟩ : Shape).Idx → EReal) (w7 w8 : (⟨2, ![512, 128]⟩ : Shape).Idx → EReal)
    (w9 w10 : (⟨1, ![512]⟩ : Shape).Idx → EReal) : Args :=
  ⟨a0, a1, a2, Weights.ofArrays w3 w4 w5 w6 w7 w8 w9 w10⟩

/-- Row (p, b)'s input. -/
def Args.x (A : Args) (p : Fin 64) (b : Fin 2048) : Fin 2 → EReal := fun k => A.X (ix3 b p k)
/-- Row (p, b)'s old hidden state of layer l. -/
def Args.h (A : Args) (l : Fin 2) (p : Fin 64) (b : Fin 2048) : Fin 128 → EReal := fun j => A.H0 (ix4 p l b j)
/-- Row (p, b)'s old cell state of layer l. -/
def Args.c (A : Args) (l : Fin 2) (p : Fin 64) (b : Fin 2048) : Fin 128 → EReal := fun j => A.C0 (ix4 p l b j)

def C1 (A : Args) (p : Fin 64) (b : Fin 2048) : Fin 128 → EReal := c1row A.W (A.x p b) (A.h 0 p b) (A.c 0 p b)
def H1 (A : Args) (p : Fin 64) (b : Fin 2048) : Fin 128 → EReal := h1row A.W (A.x p b) (A.h 0 p b) (A.c 0 p b)
def C2 (A : Args) (p : Fin 64) (b : Fin 2048) : Fin 128 → EReal :=
  c2row A.W (A.x p b) (A.h 0 p b) (A.c 0 p b) (A.h 1 p b) (A.c 1 p b)
def H2 (A : Args) (p : Fin 64) (b : Fin 2048) : Fin 128 → EReal :=
  h2row A.W (A.x p b) (A.h 0 p b) (A.c 0 p b) (A.h 1 p b) (A.c 1 p b)

/-- The first result, [b, p, j]: layer 1's new hidden state. -/
def enc (A : Args) : (⟨3, ![2048, 64, 128]⟩ : Shape).Idx → EReal := fun i => H2 A (i 1) (i 0) (i 2)
/-- The same laid out [b, p·128 + j], as the kernel writes it before the final reshape. -/
def encFlat (A : Args) : (⟨2, ![2048, 8192]⟩ : Shape).Idx → EReal := fun i =>
  H2 A ⟨(i 1).val / 128, by have h : (i 1).val < 8192 := (i 1).isLt; show (i 1).val / 128 < 64; omega⟩ (i 0)
    ⟨(i 1).val % 128, Nat.mod_lt _ (by norm_num)⟩
/-- The second result, [p, l, b, j]: the new hidden states of both layers. -/
def hnext (A : Args) : (⟨4, ![64, 2, 2048, 128]⟩ : Shape).Idx → EReal := fun i =>
  if (i 1).val = 0 then H1 A (i 0) (i 2) (i 3) else H2 A (i 0) (i 2) (i 3)
/-- The third result, [p, l, b, j]: the new cell states of both layers. -/
def cnext (A : Args) : (⟨4, ![64, 2, 2048, 128]⟩ : Shape).Idx → EReal := fun i =>
  if (i 1).val = 0 then C1 A (i 0) (i 2) (i 3) else C2 A (i 0) (i 2) (i 3)

end Cert.Lstm

end
-- ==== Proof.KernelInputs.lean ====
/-
  The kernel's grid has 64 × 2 points; point (p, h) works on the 1024 rows b = h·1024 … h·1024 + 1023 of p.
  This module says where each input window's block at a point sits in its array: the input block is
  X-transposed[p, h·1024 + r, k] = X[h·1024 + r, p, k], a state block is H0[p, l, h·1024 + r, j] (both layers l),
  and every parameter block is its whole array. So row r of the blocks at a point is row (p, h·1024 + r) of the
  arguments, and the parameters read off the blocks are the arguments' parameters.
-/
import proofs.«168537_j49031346651728_2_alg».proof.Proof.Gen.KernelIdeal.Frame
import proofs.«168537_j49031346651728_2_alg».proof.Proof.Spec
import Idealize.ShloMosaic.Lib.Pipeline.Value
import Idealize.ShloMosaic.Lib.ValueIdx
import Idealize.ShloMosaic.Lib.StableHlo.Run

set_option maxRecDepth 16384

noncomputable section

namespace Cert.Lstm.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- The kernel's argument arrays on core c, bundled. -/
def args (c : Dev nD) : Cert.Lstm.Args :=
  Cert.Lstm.Args.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-! ## The index maps over the grid -/

/-- The output window 13's block index at a point is (h, p); the input and the state windows sit at the same p and h,
    their other block coordinates zero. Decided over the 128 points. -/
theorem idx_facts : ∀ t : Fin cfg0.N,
    win0_0.index t (0 : Fin 3) = win0_13.index t (1 : Fin 2) ∧ win0_0.index t (1 : Fin 3) = win0_13.index t (0 : Fin 2) ∧ win0_0.index t (2 : Fin 3) = 0
    ∧ win0_1.index t (0 : Fin 4) = win0_13.index t (1 : Fin 2) ∧ win0_1.index t (1 : Fin 4) = 0 ∧ win0_1.index t (2 : Fin 4) = win0_13.index t (0 : Fin 2) ∧ win0_1.index t (3 : Fin 4) = 0
    ∧ win0_2.index t (0 : Fin 4) = win0_13.index t (1 : Fin 2) ∧ win0_2.index t (1 : Fin 4) = 0 ∧ win0_2.index t (2 : Fin 4) = win0_13.index t (0 : Fin 2) ∧ win0_2.index t (3 : Fin 4) = 0
    ∧ win0_11.index t (0 : Fin 4) = win0_13.index t (1 : Fin 2) ∧ win0_11.index t (1 : Fin 4) = 0 ∧ win0_11.index t (2 : Fin 4) = win0_13.index t (0 : Fin 2) ∧ win0_11.index t (3 : Fin 4) = 0
    ∧ win0_12.index t (0 : Fin 4) = win0_13.index t (1 : Fin 2) ∧ win0_12.index t (1 : Fin 4) = 0 ∧ win0_12.index t (2 : Fin 4) = win0_13.index t (0 : Fin 2) ∧ win0_12.index t (3 : Fin 4) = 0
    ∧ win0_13.index t (0 : Fin 2) ≤ 1 ∧ win0_13.index t (1 : Fin 2) ≤ 63 :=
  (by decide +kernel : ∀ t : Fin grid0.N, _)

/-- Every parameter window stays at block zero. -/
theorem idx_zero : ∀ t : Fin cfg0.N,
    win0_3.index t (0 : Fin 2) = 0 ∧ win0_3.index t (1 : Fin 2) = 0 ∧ win0_4.index t (0 : Fin 2) = 0 ∧ win0_4.index t (1 : Fin 2) = 0
    ∧ win0_5.index t (0 : Fin 1) = 0 ∧ win0_6.index t (0 : Fin 1) = 0
    ∧ win0_7.index t (0 : Fin 2) = 0 ∧ win0_7.index t (1 : Fin 2) = 0 ∧ win0_8.index t (0 : Fin 2) = 0 ∧ win0_8.index t (1 : Fin 2) = 0
    ∧ win0_9.index t (0 : Fin 1) = 0 ∧ win0_10.index t (0 : Fin 1) = 0 :=
  (by decide +kernel : ∀ t : Fin grid0.N, _)

/-- Every (h, p) is some point's. -/
theorem idx_onto : ∀ (q0 : Fin 2) (q1 : Fin 64), ∃ t : Fin cfg0.N, win0_13.index t (0 : Fin 2) = q0.val ∧ win0_13.index t (1 : Fin 2) = q1.val :=
  (by decide +kernel : ∀ (q0 : Fin 2) (q1 : Fin 64), ∃ t : Fin grid0.N, win0_13.index t (0 : Fin 2) = q0.val ∧ win0_13.index t (1 : Fin 2) = q1.val)

/-! ## The host line before the region -/

/-- The region finds the input transposed: [p, b, k] holds X[b, p, k]. -/
theorem V_main_v0_apply (c : Dev nD) (p : Fin 64) (b : Fin 2048) (k : Fin 2) :
    (V m c main_v0 : S64x2048x2.Idx → EReal) (ix3 p b k) = ((m ((c.tc : Thread nD τ).loc main_arg0)) : S2048x64x2.Idx → EReal) (ix3 b p k) := by
  have e : (V m c main_v0 : S64x2048x2.Idx → EReal)
      = transpose S64x2048x2 [1, 0, 2] (m ((c.tc : Thread nD τ).loc main_arg0)) transposes_S2048x64x2_S64x2048x2_1_0_2 := by
    show StableHlo.after hostOps0 (fun b => m (c, b)) (Proc.devRef .tc main_v0) = _
    after_results
  rw [e]
  exact transpose_apply [1, 0, 2] _ transposes_S2048x64x2_S64x2048x2_1_0_2 (ix3 p b k) (ix3 b p k) (fun a => match a with
    | ⟨0, _⟩ => rfl
    | ⟨1, _⟩ => rfl
    | ⟨2, _⟩ => rfl)

/-! ## The blocks at a point -/

section
variable (c : Dev nD) (t : Fin cfg0.N) (r : Fin 1024) (p : Fin 64) (b : Fin 2048)
  (hp : p.val = win0_13.index t (1 : Fin 2)) (hb : b.val = win0_13.index t (0 : Fin 2) * 1024 + r.val)
include hp hb

/-- Row r of the input block at a point is the input of row (p, b). -/
theorem iblk0_apply (k : Fin 2) :
    (iblk m c 0 t : Vec Ideal S1x1024x2 .f32) (ix3 (0 : Fin 1) r k) = ((m ((c.tc : Thread nD τ).loc main_arg0)) : S2048x64x2.Idx → EReal) (ix3 b p k) := by
  obtain ⟨e0, e1, e2, -⟩ := idx_facts t
  unfold iblk
  rw [View.read_apply]
  show V m c main_v0 _ = _
  refine (congrArg (V m c main_v0 : S64x2048x2.Idx → EReal) (?_ : _ = ix3 p b k)).trans (V_main_v0_apply m c p b k)
  funext a; apply Fin.ext
  match a with
  | ⟨0, _⟩ => show win0_0.index t (0 : Fin 3) * 1 + 1 * 0 = p.val; omega
  | ⟨1, _⟩ => show win0_0.index t (1 : Fin 3) * 1024 + 1 * r.val = b.val; omega
  | ⟨2, _⟩ => show win0_0.index t (2 : Fin 3) * 2 + 1 * k.val = k.val; omega

/-- Row r, layer l, of the hidden-state block at a point is the old hidden state of row (p, b). -/
theorem iblk1_apply (l : Fin 2) (j : Fin 128) :
    (iblk m c 1 t : Vec Ideal S1x2x1024x128 .f32) (ix4 (0 : Fin 1) l r j) = ((m ((c.tc : Thread nD τ).loc main_arg1)) : S64x2x2048x128.Idx → EReal) (ix4 p l b j) := by
  obtain ⟨-, -, -, e0, e1, e2, e3, -⟩ := idx_facts t
  unfold iblk
  rw [View.read_apply]
  show V m c main_arg1 _ = _
  rw [V_main_arg1]
  refine congrArg ((m ((c.tc : Thread nD τ).loc main_arg1)) : S64x2x2048x128.Idx → EReal) ?_
  funext a; apply Fin.ext
  match a with
  | ⟨0, _⟩ => show win0_1.index t (0 : Fin 4) * 1 + 1 * 0 = p.val; omega
  | ⟨1, _⟩ => show win0_1.index t (1 : Fin 4) * 2 + 1 * l.val = l.val; omega
  | ⟨2, _⟩ => show win0_1.index t (2 : Fin 4) * 1024 + 1 * r.val = b.val; omega
  | ⟨3, _⟩ => show win0_1.index t (3 : Fin 4) * 128 + 1 * j.val = j.val; omega

/-- The same for the cell-state block. -/
theorem iblk2_apply (l : Fin 2) (j : Fin 128) :
    (iblk m c 2 t : Vec Ideal S1x2x1024x128 .f32) (ix4 (0 : Fin 1) l r j) = ((m ((c.tc : Thread nD τ).loc main_arg2)) : S64x2x2048x128.Idx → EReal) (ix4 p l b j) := by
  obtain ⟨-, -, -, -, -, -, -, e0, e1, e2, e3, -⟩ := idx_facts t
  unfold iblk
  rw [View.read_apply]
  show V m c main_arg2 _ = _
  rw [V_main_arg2]
  refine congrArg ((m ((c.tc : Thread nD τ).loc main_arg2)) : S64x2x2048x128.Idx → EReal) ?_
  funext a; apply Fin.ext
  match a with
  | ⟨0, _⟩ => show win0_2.index t (0 : Fin 4) * 1 + 1 * 0 = p.val; omega
  | ⟨1, _⟩ => show win0_2.index t (1 : Fin 4) * 2 + 1 * l.val = l.val; omega
  | ⟨2, _⟩ => show win0_2.index t (2 : Fin 4) * 1024 + 1 * r.val = b.val; omega
  | ⟨3, _⟩ => show win0_2.index t (3 : Fin 4) * 128 + 1 * j.val = j.val; omega

/-- Row r of the blocks at a point is row (p, b) of the arguments. -/
theorem rowX_eq : Cert.Lstm.blkX (iblk m c 0 t) r = (args m c).x p b :=
  funext fun k => iblk0_apply m c t r p b hp hb k
theorem rowH_eq (l : Fin 2) : Cert.Lstm.blkS (iblk m c 1 t) l r = (args m c).h l p b :=
  funext fun j => iblk1_apply m c t r p b hp hb l j
theorem rowC_eq (l : Fin 2) : Cert.Lstm.blkS (iblk m c 2 t) l r = (args m c).c l p b :=
  funext fun j => iblk2_apply m c t r p b hp hb l j

end

/-! ## The parameter blocks are the parameter arrays -/

theorem iblk3_eq (c : Dev nD) (t : Fin cfg0.N) : (iblk m c 3 t : Vec Ideal S512x2 .f32) = (m ((c.tc : Thread nD τ).loc main_arg3)) := by
  obtain ⟨e0, e1, -, -, -, -, -, -, -, -, -, -⟩ := idx_zero t
  funext y
  unfold iblk
  rw [View.read_apply]
  show V m c main_arg3 _ = _
  rw [V_main_arg3]
  refine congrArg ((m ((c.tc : Thread nD τ).loc main_arg3)) : S512x2.Idx → EReal) ?_
  funext a; apply Fin.ext
  match a with
  | ⟨0, _⟩ => show win0_3.index t (0 : Fin 2) * 512 + 1 * (y 0).val = (y 0).val; omega
  | ⟨1, _⟩ => show win0_3.index t (1 : Fin 2) * 2 + 1 * (y 1).val = (y 1).val; omega

theorem iblk4_eq (c : Dev nD) (t : Fin cfg0.N) : (iblk m c 4 t : Vec Ideal S512x128 .f32) = (m ((c.tc : Thread nD τ).loc main_arg4)) := by
  obtain ⟨-, -, e0, e1, -, -, -, -, -, -, -, -⟩ := idx_zero t
  funext y
  unfold iblk
  rw [View.read_apply]
  show V m c main_arg4 _ = _
  rw [V_main_arg4]
  refine congrArg ((m ((c.tc : Thread nD τ).loc main_arg4)) : S512x128.Idx → EReal) ?_
  funext a; apply Fin.ext
  match a with
  | ⟨0, _⟩ => show win0_4.index t (0 : Fin 2) * 512 + 1 * (y 0).val = (y 0).val; omega
  | ⟨1, _⟩ => show win0_4.index t (1 : Fin 2) * 128 + 1 * (y 1).val = (y 1).val; omega

theorem iblk5_eq (c : Dev nD) (t : Fin cfg0.N) : (iblk m c 5 t : Vec Ideal S512 .f32) = (m ((c.tc : Thread nD τ).loc main_arg5)) := by
  obtain ⟨-, -, -, -, e0, -, -, -, -, -, -, -⟩ := idx_zero t
  funext y
  unfold iblk
  rw [View.read_apply]
  show V m c main_arg5 _ = _
  rw [V_main_arg5]
  refine congrArg ((m ((c.tc : Thread nD τ).loc main_arg5)) : S512.Idx → EReal) ?_
  funext a; apply Fin.ext
  match a with
  | ⟨0, _⟩ => show win0_5.index t (0 : Fin 1) * 512 + 1 * (y 0).val = (y 0).val; omega

theorem iblk6_eq (c : Dev nD) (t : Fin cfg0.N) : (iblk m c 6 t : Vec Ideal S512 .f32) = (m ((c.tc : Thread nD τ).loc main_arg6)) := by
  obtain ⟨-, -, -, -, -, e0, -, -, -, -, -, -⟩ := idx_zero t
  funext y
  unfold iblk
  rw [View.read_apply]
  show V m c main_arg6 _ = _
  rw [V_main_arg6]
  refine congrArg ((m ((c.tc : Thread nD τ).loc main_arg6)) : S512.Idx → EReal) ?_
  funext a; apply Fin.ext
  match a with
  | ⟨0, _⟩ => show win0_6.index t (0 : Fin 1) * 512 + 1 * (y 0).val = (y 0).val; omega

theorem iblk7_eq (c : Dev nD) (t : Fin cfg0.N) : (iblk m c 7 t : Vec Ideal S512x128 .f32) = (m ((c.tc : Thread nD τ).loc main_arg7)) := by
  obtain ⟨-, -, -, -, -, -, e0, e1, -, -, -, -⟩ := idx_zero t
  funext y
  unfold iblk
  rw [View.read_apply]
  show V m c main_arg7 _ = _
  rw [V_main_arg7]
  refine congrArg ((m ((c.tc : Thread nD τ).loc main_arg7)) : S512x128.Idx → EReal) ?_
  funext a; apply Fin.ext
  match a with
  | ⟨0, _⟩ => show win0_7.index t (0 : Fin 2) * 512 + 1 * (y 0).val = (y 0).val; omega
  | ⟨1, _⟩ => show win0_7.index t (1 : Fin 2) * 128 + 1 * (y 1).val = (y 1).val; omega

theorem iblk8_eq (c : Dev nD) (t : Fin cfg0.N) : (iblk m c 8 t : Vec Ideal S512x128 .f32) = (m ((c.tc : Thread nD τ).loc main_arg8)) := by
  obtain ⟨-, -, -, -, -, -, -, -, e0, e1, -, -⟩ := idx_zero t
  funext y
  unfold iblk
  rw [View.read_apply]
  show V m c main_arg8 _ = _
  rw [V_main_arg8]
  refine congrArg ((m ((c.tc : Thread nD τ).loc main_arg8)) : S512x128.Idx → EReal) ?_
  funext a; apply Fin.ext
  match a with
  | ⟨0, _⟩ => show win0_8.index t (0 : Fin 2) * 512 + 1 * (y 0).val = (y 0).val; omega
  | ⟨1, _⟩ => show win0_8.index t (1 : Fin 2) * 128 + 1 * (y 1).val = (y 1).val; omega

theorem iblk9_eq (c : Dev nD) (t : Fin cfg0.N) : (iblk m c 9 t : Vec Ideal S512 .f32) = (m ((c.tc : Thread nD τ).loc main_arg9)) := by
  obtain ⟨-, -, -, -, -, -, -, -, -, -, e0, -⟩ := idx_zero t
  funext y
  unfold iblk
  rw [View.read_apply]
  show V m c main_arg9 _ = _
  rw [V_main_arg9]
  refine congrArg ((m ((c.tc : Thread nD τ).loc main_arg9)) : S512.Idx → EReal) ?_
  funext a; apply Fin.ext
  match a with
  | ⟨0, _⟩ => show win0_9.index t (0 : Fin 1) * 512 + 1 * (y 0).val = (y 0).val; omega

theorem iblk10_eq (c : Dev nD) (t : Fin cfg0.N) : (iblk m c 10 t : Vec Ideal S512 .f32) = (m ((c.tc : Thread nD τ).loc main_arg10)) := by
  obtain ⟨-, -, -, -, -, -, -, -, -, -, -, e0⟩ := idx_zero t
  funext y
  unfold iblk
  rw [View.read_apply]
  show V m c main_arg10 _ = _
  rw [V_main_arg10]
  refine congrArg ((m ((c.tc : Thread nD τ).loc main_arg10)) : S512.Idx → EReal) ?_
  funext a; apply Fin.ext
  match a with
  | ⟨0, _⟩ => show win0_10.index t (0 : Fin 1) * 512 + 1 * (y 0).val = (y 0).val; omega

/-- The parameters read off the blocks at any point are the arguments' parameters. -/
theorem weights_eq (c : Dev nD) (t : Fin cfg0.N) :
    Cert.Lstm.Weights.ofArrays (iblk m c 3 t) (iblk m c 4 t) (iblk m c 5 t) (iblk m c 6 t) (iblk m c 7 t) (iblk m c 8 t) (iblk m c 9 t) (iblk m c 10 t)
      = (args m c).W := by
  rw [iblk3_eq, iblk4_eq, iblk5_eq, iblk6_eq, iblk7_eq, iblk8_eq, iblk9_eq, iblk10_eq]
  rfl

end Cert.Lstm.Arr

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.KernelBody.lean ====
/-
  What the kernel's body leaves in its three output buffers, entry by entry, on the extended reals.

  The body works on a block of 1024 rows. Per row r it forms layer 0's 512 gate pre-activations
      g0 q = (∑ k, x[r, k] · Wih0[q, k] + ∑ k, h0[r, k] · Whh0[q, k]) + (bih0 q + bhh0 q)
  as two matrix products against the transposed weight matrices into a zero accumulator plus the two biases' sum
  spread over the rows; cuts g0 into four runs of 128 columns (input, forget, candidate, output); forms the new cell
  state σ(f)·c + σ(i)·tanh(g) and the new hidden state σ(o)·tanh(new cell); then does the same for layer 1, whose
  input matrix is layer 0's new hidden state. A change of number format is the identity on the extended reals, and a
  reshape that adds or drops unit axes keeps every entry, so each stored entry is the specification's row function
  of the row's data.

  The three buffers: the [1024, 128] buffer holds layer 1's new hidden state; the two [1, 2, 1024, 128] buffers hold,
  in their layer-0 half and their layer-1 half, the new hidden states and the new cell states of the two layers. Each
  half is written by one store, the layer-1 half last; the halves are disjoint, so an entry of layer l reads the store
  of layer l.
-/
import proofs.«168537_j49031346651728_2_alg».proof.Proof.Gen.KernelIdeal.Frame
import proofs.«168537_j49031346651728_2_alg».proof.Proof.Spec
import proofs.«168537_j49031346651728_2_alg».proof.Proof.LibMatmul
import Idealize.ShloMosaic.Lib.ValueLayout
import Idealize.ShloMosaic.Lib.Pipeline.Value

noncomputable section

open scoped BigOperators

namespace Cert.Lstm.Body

open Cert.KernelIdeal Cert.KernelIdeal.Gen Idealize.ShloMosaic Idealize.ShloMosaic.ValueIdx

/-! ## Two unit axes added or dropped by a reshape -/

variable {α : Type}

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An [a, b] array cast to [1, 1, a, b] reads, at (u, u', i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']; simp)

/-! ## The loads: a half of a state block, and the whole buffers -/

/-- Where the layer-0 half's (0, 0, r, j) sits in a state block. -/
theorem idx_r0_1 (r : Fin 1024) (j : Fin 128) :
    r0_1.idx (ix4 (0 : Fin 1) (0 : Fin 1) r j) = ix4 (0 : Fin 1) (0 : Fin 2) r j := by
  funext a
  refine Fin.ext ?_
  match a with
  | ⟨0, _⟩ => rfl
  | ⟨1, _⟩ => rfl
  | ⟨2, _⟩ => show 0 + 1 * r.val = r.val; omega
  | ⟨3, _⟩ => show 0 + 1 * j.val = j.val; omega

/-- Where the layer-1 half's (0, 0, r, j) sits in a state block. -/
theorem idx_r0_5 (r : Fin 1024) (j : Fin 128) :
    r0_5.idx (ix4 (0 : Fin 1) (0 : Fin 1) r j) = ix4 (0 : Fin 1) (1 : Fin 2) r j := by
  funext a
  refine Fin.ext ?_
  match a with
  | ⟨0, _⟩ => rfl
  | ⟨1, _⟩ => rfl
  | ⟨2, _⟩ => show 0 + 1 * r.val = r.val; omega
  | ⟨3, _⟩ => show 0 + 1 * j.val = j.val; omega

/-- A layer-0 entry of a state block is not in its layer-1 half. -/
theorem not_mem_r0_5 (r : Fin 1024) (j : Fin 128) : ix4 (0 : Fin 1) (0 : Fin 2) r j ∉ r0_5.set := by
  intro h
  have h1 := (Rect.mem_set_unit.mp h) ⟨1, by decide⟩
  have h2 : (1 : ℕ) ≤ 0 := h1.1
  omega

/-- The layer-0 half of a state block, read at (0, 0, r, j). -/
theorem ld_r0_1 (x : Vec Ideal S1x2x1024x128 .f32) (r : Fin 1024) (j : Fin 128) :
    View.ld (Val := Elt Ideal) (e' := .f32) x r0_1 (ix4 (0 : Fin 1) (0 : Fin 1) r j) = x (ix4 (0 : Fin 1) (0 : Fin 2) r j) :=
  congrArg x (idx_r0_1 r j)

/-- The layer-1 half of a state block, read at (0, 0, r, j). -/
theorem ld_r0_5 (x : Vec Ideal S1x2x1024x128 .f32) (r : Fin 1024) (j : Fin 128) :
    View.ld (Val := Elt Ideal) (e' := .f32) x r0_5 (ix4 (0 : Fin 1) (0 : Fin 1) r j) = x (ix4 (0 : Fin 1) (1 : Fin 2) r j) :=
  congrArg x (idx_r0_5 r j)

/-- The loads through a whole buffer read the buffer. -/
theorem ld_r0_0 (x : Vec Ideal S1x1024x2 .f32) : View.ld (Val := Elt Ideal) (e' := .f32) x r0_0 = x :=
  View.ld_unit_zero (funext fun a => by match a with | ⟨0, _⟩ => rfl | ⟨1, _⟩ => rfl | ⟨2, _⟩ => rfl) _ x
theorem ld_r0_2 (x : Vec Ideal S512x2 .f32) : View.ld (Val := Elt Ideal) (e' := .f32) x r0_2 = x :=
  View.ld_unit_zero (funext fun a => by match a with | ⟨0, _⟩ => rfl | ⟨1, _⟩ => rfl) _ x
theorem ld_r0_3 (x : Vec Ideal S512x128 .f32) : View.ld (Val := Elt Ideal) (e' := .f32) x r0_3 = x :=
  View.ld_unit_zero (funext fun a => by match a with | ⟨0, _⟩ => rfl | ⟨1, _⟩ => rfl) _ x
theorem ld_r0_4 (x : Vec Ideal S512 .f32) : View.ld (Val := Elt Ideal) (e' := .f32) x r0_4 = x :=
  View.ld_unit_zero (funext fun a => by match a with | ⟨0, _⟩ => rfl) _ x

/-! ## The gate pre-activations: two products into zero, and the biases -/

theorem dot2_eq : dot_S1024x2_S2x512_S1024x512_1_0_0_1_n_n = DotDims.plain 1024 2 512 := rfl
theorem dot128_eq : dot_S1024x128_S128x512_S1024x512_1_0_0_1_n_n = DotDims.plain 1024 128 512 := rfl

/-- The input's product with the transposed weights into the zero accumulator, at (r, q). -/
theorem mm2_apply (L : FVec Ideal S1024x2 .bf16) (R : FVec Ideal S2x512 .bf16) (r : Fin 1024) (q : Fin 512) :
    matmul (F := Ideal) dot_S1024x2_S2x512_S1024x512_1_0_0_1_n_n none L R (constant S1024x512 .f32 0x00000000#32) (ix2 r q)
      = ∑ k : Fin 2, L (ix2 r k) * R (ix2 k q) := by
  rw [dot2_eq]; exact Cert.Bridge.LibMatmul.matmul_zero_apply none L R r q

/-- A hidden state's product with the transposed weights into the zero accumulator, at (r, q). -/
theorem mm128_apply (L : FVec Ideal S1024x128 .bf16) (R : FVec Ideal S128x512 .bf16) (r : Fin 1024) (q : Fin 512) :
    matmul (F := Ideal) dot_S1024x128_S128x512_S1024x512_1_0_0_1_n_n none L R (constant S1024x512 .f32 0x00000000#32) (ix2 r q)
      = ∑ k : Fin 128, L (ix2 r k) * R (ix2 k q) := by
  rw [dot128_eq]; exact Cert.Bridge.LibMatmul.matmul_zero_apply none L R r q

/-- The two biases' sum, as a row, over all rows, at (r, q). -/
theorem bias_apply (b b' : Vec Ideal S512 .f32) (r : Fin 1024) (q : Fin 512) :
    broadcastTo S1024x512 (shapeCast S1x512 (addf (F := Ideal) (φ := .f32) b b') Facts₀.shapeCasts_S512_S1x512) Facts₀.broadcasts_S1x512_S1024x512 (ix2 r q)
      = b (ix1 q) + b' (ix1 q) :=
  (broadcastTo_1b_ab_apply _ _ r q).trans (shapeCast_a_1a_apply _ _ 0 q)

/-- Layer 0's gate pre-activations of row r: the payload at (r, q). -/
theorem k0_pay4_apply (v0 : Vec Ideal S1x1024x2 .f32) (v3 : Vec Ideal S1x1x1024x128 .f32) (v6 : Vec Ideal S512x2 .f32)
    (v8 : Vec Ideal S512x128 .f32) (v10 v11 : Vec Ideal S512 .f32) (r : Fin 1024) (q : Fin 512) :
    k0_pay4 (F := Ideal) v0 v3 v6 v8 v10 v11 (ix2 r q)
      = Cert.Lstm.gate (fun k => v0 (ix3 (0 : Fin 1) r k)) (fun k => v3 (ix4 (0 : Fin 1) (0 : Fin 1) r k))
          (fun q k => v6 (ix2 q k)) (fun q k => v8 (ix2 q k)) (fun q => v10 (ix1 q)) (fun q => v11 (ix1 q)) q := by
  unfold k0_pay4 Cert.Lstm.gate
  refine congrArg₂ (· + ·) (congrArg₂ (· + ·) ?_ ?_) ?_
  · refine (mm2_apply _ _ r q).trans (Finset.sum_congr rfl fun k _ => congrArg₂ (· * ·) ?_ ?_)
    · exact shapeCast_1ab_ab_apply v0 _ r k
    · exact transpose_ix2_apply _ _ k q
  · refine (mm128_apply _ _ r q).trans (Finset.sum_congr rfl fun k _ => congrArg₂ (· * ·) ?_ ?_)
    · exact shapeCast_11ab_ab_apply v3 _ r k
    · exact transpose_ix2_apply _ _ k q
  · exact bias_apply v10 v11 r q

/-- Layer 1's gate pre-activations of row r: the payload at (r, q), its input the matrix it is handed. -/
theorem k0_pay8_apply (v36 : FVec Ideal S1024x128 .bf16) (v37 : Vec Ideal S1x1x1024x128 .f32) (v40 v42 : Vec Ideal S512x128 .f32)
    (v44 v45 : Vec Ideal S512 .f32) (r : Fin 1024) (q : Fin 512) :
    k0_pay8 (F := Ideal) v36 v37 v40 v42 v44 v45 (ix2 r q)
      = Cert.Lstm.gate (fun k => v36 (ix2 r k)) (fun k => v37 (ix4 (0 : Fin 1) (0 : Fin 1) r k))
          (fun q k => v40 (ix2 q k)) (fun q k => v42 (ix2 q k)) (fun q => v44 (ix1 q)) (fun q => v45 (ix1 q)) q := by
  unfold k0_pay8 Cert.Lstm.gate
  refine congrArg₂ (· + ·) (congrArg₂ (· + ·) ?_ ?_) ?_
  · refine (mm128_apply _ _ r q).trans (Finset.sum_congr rfl fun k _ => congrArg₂ (· * ·) rfl ?_)
    exact transpose_ix2_apply _ _ k q
  · refine (mm128_apply _ _ r q).trans (Finset.sum_congr rfl fun k _ => congrArg₂ (· * ·) ?_ ?_)
    · exact shapeCast_11ab_ab_apply v37 _ r k
    · exact transpose_ix2_apply _ _ k q
  · exact bias_apply v44 v45 r q

/-! ## The cell and hidden states of a row, from the loaded vectors -/

/-- Row r of a [1, 1, 1024, 128] vector (one layer's half of a state block, as loaded). -/
def row4 (v : Vec Ideal S1x1x1024x128 .f32) (r : Fin 1024) : Fin 128 → EReal := fun j => v (ix4 (0 : Fin 1) (0 : Fin 1) r j)

/-- Layer 0's gates of row r, from the loaded vectors. -/
def gates0 (v0 : Vec Ideal S1x1024x2 .f32) (v3 : Vec Ideal S1x1x1024x128 .f32) (v6 : Vec Ideal S512x2 .f32)
    (v8 : Vec Ideal S512x128 .f32) (v10 v11 : Vec Ideal S512 .f32) (r : Fin 1024) : Fin 512 → EReal :=
  Cert.Lstm.gate (Cert.Lstm.blkX v0 r) (row4 v3 r) (fun q k => v6 (ix2 q k)) (fun q k => v8 (ix2 q k))
    (fun q => v10 (ix1 q)) (fun q => v11 (ix1 q))

/-- Layer 1's gates of row r, from its input matrix and the loaded vectors. -/
def gates1 (v36 : FVec Ideal S1024x128 .bf16) (v37 : Vec Ideal S1x1x1024x128 .f32) (v40 v42 : Vec Ideal S512x128 .f32)
    (v44 v45 : Vec Ideal S512 .f32) (r : Fin 1024) : Fin 512 → EReal :=
  Cert.Lstm.gate (fun k => v36 (ix2 r k)) (row4 v37 r) (fun q k => v40 (ix2 q k)) (fun q k => v42 (ix2 q k))
    (fun q => v44 (ix1 q)) (fun q => v45 (ix1 q))

section Layer0
variable (v0 : Vec Ideal S1x1024x2 .f32) (v3 : Vec Ideal S1x1x1024x128 .f32) (v6 : Vec Ideal S512x2 .f32)
    (v8 : Vec Ideal S512x128 .f32) (v10 v11 : Vec Ideal S512 .f32) (v25 : Vec Ideal S1x1x1024x128 .f32) (r : Fin 1024)

theorem pay4_row : (fun q => k0_pay4 (F := Ideal) v0 v3 v6 v8 v10 v11 (ix2 r q)) = gates0 v0 v3 v6 v8 v10 v11 r :=
  funext fun q => k0_pay4_apply v0 v3 v6 v8 v10 v11 r q

/-- Layer 0's new cell state of row r at j. -/
theorem k0_pay5_apply (j : Fin 128) :
    k0_pay5 (F := Ideal) v0 v3 v6 v8 v10 v11 v25 (ix2 r j)
      = Cert.Lstm.cellC (gates0 v0 v3 v6 v8 v10 v11 r) (row4 v25 r) j := by
  rw [← pay4_row]
  unfold k0_pay5 Cert.Lstm.cellC
  refine congrArg₂ (· + ·) (congrArg₂ (· * ·) (congrArg Ideal.logistic ?_) ?_)
    (congrArg₂ (· * ·) (congrArg Ideal.logistic ?_) (congrArg Ideal.tanh ?_))
  · exact slice2_axis1_apply 128 _ _ r j (Cert.Lstm.gF j) rfl
  · exact shapeCast_11ab_ab_apply v25 _ r j
  · exact slice2_axis1_apply 0 _ _ r j (Cert.Lstm.gI j) rfl
  · exact slice2_axis1_apply 256 _ _ r j (Cert.Lstm.gG j) rfl

theorem pay5_row : (fun j => k0_pay5 (F := Ideal) v0 v3 v6 v8 v10 v11 v25 (ix2 r j))
    = Cert.Lstm.cellC (gates0 v0 v3 v6 v8 v10 v11 r) (row4 v25 r) :=
  funext fun j => k0_pay5_apply v0 v3 v6 v8 v10 v11 v25 r j

/-- Layer 0's new hidden state of row r at j. -/
theorem k0_pay6_apply (j : Fin 128) :
    k0_pay6 (F := Ideal) v0 v3 v6 v8 v10 v11 v25 (ix2 r j)
      = Cert.Lstm.cellH (gates0 v0 v3 v6 v8 v10 v11 r) (Cert.Lstm.cellC (gates0 v0 v3 v6 v8 v10 v11 r) (row4 v25 r)) j := by
  rw [← pay5_row, ← pay4_row]
  unfold k0_pay6 Cert.Lstm.cellH
  refine congrArg₂ (· * ·) (congrArg Ideal.logistic ?_) rfl
  exact slice2_axis1_apply 384 _ _ r j (Cert.Lstm.gO j) rfl

/-- Its copy in the matrix unit's input format is the same number. -/
theorem k0_pay7_apply (j : Fin 128) :
    k0_pay7 (F := Ideal) v0 v3 v6 v8 v10 v11 v25 (ix2 r j)
      = Cert.Lstm.cellH (gates0 v0 v3 v6 v8 v10 v11 r) (Cert.Lstm.cellC (gates0 v0 v3 v6 v8 v10 v11 r) (row4 v25 r)) j :=
  k0_pay6_apply v0 v3 v6 v8 v10 v11 v25 r j

end Layer0

section Layer1
variable (v36 : FVec Ideal S1024x128 .bf16) (v37 : Vec Ideal S1x1x1024x128 .f32) (v40 v42 : Vec Ideal S512x128 .f32)
    (v44 v45 : Vec Ideal S512 .f32) (v59 : Vec Ideal S1x1x1024x128 .f32) (r : Fin 1024)

theorem pay8_row : (fun q => k0_pay8 (F := Ideal) v36 v37 v40 v42 v44 v45 (ix2 r q)) = gates1 v36 v37 v40 v42 v44 v45 r :=
  funext fun q => k0_pay8_apply v36 v37 v40 v42 v44 v45 r q

/-- Layer 1's new cell state of row r at j. -/
theorem k0_pay9_apply (j : Fin 128) :
    k0_pay9 (F := Ideal) v36 v37 v40 v42 v44 v45 v59 (ix2 r j)
      = Cert.Lstm.cellC (gates1 v36 v37 v40 v42 v44 v45 r) (row4 v59 r) j := by
  rw [← pay8_row]
  unfold k0_pay9 Cert.Lstm.cellC
  refine congrArg₂ (· + ·) (congrArg₂ (· * ·) (congrArg Ideal.logistic ?_) ?_)
    (congrArg₂ (· * ·) (congrArg Ideal.logistic ?_) (congrArg Ideal.tanh ?_))
  · exact slice2_axis1_apply 128 _ _ r j (Cert.Lstm.gF j) rfl
  · exact shapeCast_11ab_ab_apply v59 _ r j
  · exact slice2_axis1_apply 0 _ _ r j (Cert.Lstm.gI j) rfl
  · exact slice2_axis1_apply 256 _ _ r j (Cert.Lstm.gG j) rfl

theorem pay9_row : (fun j => k0_pay9 (F := Ideal) v36 v37 v40 v42 v44 v45 v59 (ix2 r j))
    = Cert.Lstm.cellC (gates1 v36 v37 v40 v42 v44 v45 r) (row4 v59 r) :=
  funext fun j => k0_pay9_apply v36 v37 v40 v42 v44 v45 v59 r j

/-- Layer 1's new hidden state of row r at j. -/
theorem k0_pay10_apply (j : Fin 128) :
    k0_pay10 (F := Ideal) v36 v37 v40 v42 v44 v45 v59 (ix2 r j)
      = Cert.Lstm.cellH (gates1 v36 v37 v40 v42 v44 v45 r) (Cert.Lstm.cellC (gates1 v36 v37 v40 v42 v44 v45 r) (row4 v59 r)) j := by
  rw [← pay9_row, ← pay8_row]
  unfold k0_pay10 Cert.Lstm.cellH
  refine congrArg₂ (· * ·) (congrArg Ideal.logistic ?_) rfl
  exact slice2_axis1_apply 384 _ _ r j (Cert.Lstm.gO j) rfl

end Layer1

/-! ## The same from the blocks, and the three buffers -/

theorem row4_ld_r0_1 (x : Vec Ideal S1x2x1024x128 .f32) (r : Fin 1024) :
    row4 (View.ld (Val := Elt Ideal) (e' := .f32) x r0_1) r = Cert.Lstm.blkS x 0 r := funext fun j => ld_r0_1 x r j
theorem row4_ld_r0_5 (x : Vec Ideal S1x2x1024x128 .f32) (r : Fin 1024) :
    row4 (View.ld (Val := Elt Ideal) (e' := .f32) x r0_5) r = Cert.Lstm.blkS x 1 r := funext fun j => ld_r0_5 x r j

section Body
variable (x0 : Vec Ideal S1x1024x2 .f32) (x1 x2 : Vec Ideal S1x2x1024x128 .f32) (x3 : Vec Ideal S512x2 .f32)
    (x4 : Vec Ideal S512x128 .f32) (x5 x6 : Vec Ideal S512 .f32) (x7 x8 : Vec Ideal S512x128 .f32) (x9 x10 : Vec Ideal S512 .f32)

local notation "W" => Cert.Lstm.Weights.ofArrays x3 x4 x5 x6 x7 x8 x9 x10

/-- Layer 0's gates of row r, from the blocks. -/
theorem gates0_blocks (r : Fin 1024) :
    gates0 (View.ld x0 r0_0) (View.ld x1 r0_1) (View.ld x3 r0_2) (View.ld x4 r0_3) (View.ld x5 r0_4) (View.ld x6 r0_4) r
      = Cert.Lstm.gate (Cert.Lstm.blkX x0 r) (Cert.Lstm.blkS x1 0 r) (W).Wih0 (W).Whh0 (W).bih0 (W).bhh0 := by
  unfold gates0
  rw [row4_ld_r0_1 x1, ld_r0_0 x0, ld_r0_2 x3, ld_r0_3 x4, ld_r0_4 x5, ld_r0_4 x6]
  rfl

/-- Layer 0's new cell state of row r, from the blocks. -/
theorem c1_blocks (r : Fin 1024) (j : Fin 128) :
    k0_pay5 (F := Ideal) (View.ld x0 r0_0) (View.ld x1 r0_1) (View.ld x3 r0_2) (View.ld x4 r0_3) (View.ld x5 r0_4) (View.ld x6 r0_4)
        (View.ld x2 r0_1) (ix2 r j)
      = Cert.Lstm.c1row W (Cert.Lstm.blkX x0 r) (Cert.Lstm.blkS x1 0 r) (Cert.Lstm.blkS x2 0 r) j := by
  rw [k0_pay5_apply, gates0_blocks, row4_ld_r0_1 x2]
  rfl

/-- Layer 0's new hidden state of row r, from the blocks. -/
theorem h1_blocks (r : Fin 1024) (j : Fin 128) :
    k0_pay6 (F := Ideal) (View.ld x0 r0_0) (View.ld x1 r0_1) (View.ld x3 r0_2) (View.ld x4 r0_3) (View.ld x5 r0_4) (View.ld x6 r0_4)
        (View.ld x2 r0_1) (ix2 r j)
      = Cert.Lstm.h1row W (Cert.Lstm.blkX x0 r) (Cert.Lstm.blkS x1 0 r) (Cert.Lstm.blkS x2 0 r) j := by
  rw [k0_pay6_apply, gates0_blocks, row4_ld_r0_1 x2]
  rfl

/-- Layer 1's gates of row r, from the blocks: its input is layer 0's new hidden state. -/
theorem gates1_blocks (r : Fin 1024) :
    gates1 (k0_pay7 (F := Ideal) (View.ld x0 r0_0) (View.ld x1 r0_1) (View.ld x3 r0_2) (View.ld x4 r0_3) (View.ld x5 r0_4) (View.ld x6 r0_4)
        (View.ld x2 r0_1)) (View.ld x1 r0_5) (View.ld x7 r0_3) (View.ld x8 r0_3) (View.ld x9 r0_4) (View.ld x10 r0_4) r
      = Cert.Lstm.gate (Cert.Lstm.h1row W (Cert.Lstm.blkX x0 r) (Cert.Lstm.blkS x1 0 r) (Cert.Lstm.blkS x2 0 r))
          (Cert.Lstm.blkS x1 1 r) (W).Wih1 (W).Whh1 (W).bih1 (W).bhh1 := by
  unfold gates1
  have hin : (fun k => k0_pay7 (F := Ideal) (View.ld x0 r0_0) (View.ld x1 r0_1) (View.ld x3 r0_2) (View.ld x4 r0_3) (View.ld x5 r0_4)
      (View.ld x6 r0_4) (View.ld x2 r0_1) (ix2 r k))
      = Cert.Lstm.h1row W (Cert.Lstm.blkX x0 r) (Cert.Lstm.blkS x1 0 r) (Cert.Lstm.blkS x2 0 r) :=
    funext fun k => h1_blocks x0 x1 x2 x3 x4 x5 x6 x7 x8 x9 x10 r k
  rw [hin, row4_ld_r0_5 x1, ld_r0_3 x7, ld_r0_3 x8, ld_r0_4 x9, ld_r0_4 x10]
  rfl

/-- Layer 1's new cell state of row r, from the blocks. -/
theorem c2_blocks (r : Fin 1024) (j : Fin 128) :
    k0_pay9 (F := Ideal) (k0_pay7 (View.ld x0 r0_0) (View.ld x1 r0_1) (View.ld x3 r0_2) (View.ld x4 r0_3) (View.ld x5 r0_4) (View.ld x6 r0_4)
        (View.ld x2 r0_1)) (View.ld x1 r0_5) (View.ld x7 r0_3) (View.ld x8 r0_3) (View.ld x9 r0_4) (View.ld x10 r0_4) (View.ld x2 r0_5) (ix2 r j)
      = Cert.Lstm.c2row W (Cert.Lstm.blkX x0 r) (Cert.Lstm.blkS x1 0 r) (Cert.Lstm.blkS x2 0 r) (Cert.Lstm.blkS x1 1 r)
          (Cert.Lstm.blkS x2 1 r) j := by
  rw [k0_pay9_apply, gates1_blocks, row4_ld_r0_5 x2]
  rfl

/-- Layer 1's new hidden state of row r, from the blocks. -/
theorem h2_blocks (r : Fin 1024) (j : Fin 128) :
    k0_pay10 (F := Ideal) (k0_pay7 (View.ld x0 r0_0) (View.ld x1 r0_1) (View.ld x3 r0_2) (View.ld x4 r0_3) (View.ld x5 r0_4) (View.ld x6 r0_4)
        (View.ld x2 r0_1)) (View.ld x1 r0_5) (View.ld x7 r0_3) (View.ld x8 r0_3) (View.ld x9 r0_4) (View.ld x10 r0_4) (View.ld x2 r0_5) (ix2 r j)
      = Cert.Lstm.h2row W (Cert.Lstm.blkX x0 r) (Cert.Lstm.blkS x1 0 r) (Cert.Lstm.blkS x2 0 r) (Cert.Lstm.blkS x1 1 r)
          (Cert.Lstm.blkS x2 1 r) j := by
  rw [k0_pay10_apply, gates1_blocks, row4_ld_r0_5 x2]
  rfl

/-- A two-piece state buffer (the layer-1 half stored last, the layer-0 half before it) read at a layer-1 entry. -/
theorem canon_layer1 (p1 p0 : Vec Ideal S1x1x1024x128 .f32) (r : Fin 1024) (j : Fin 128) :
    View.canon (Val := Elt Ideal) [⟨r0_5, p1⟩, ⟨r0_1, p0⟩] (ix4 (0 : Fin 1) (1 : Fin 2) r j) = p1 (ix4 (0 : Fin 1) (0 : Fin 1) r j) := by
  rw [← idx_r0_5 r j]
  exact View.canon_cons_emb (Val := Elt Ideal) r0_5 p1 _ _

/-- The same buffer read at a layer-0 entry. -/
theorem canon_layer0 (p1 p0 : Vec Ideal S1x1x1024x128 .f32) (r : Fin 1024) (j : Fin 128) :
    View.canon (Val := Elt Ideal) [⟨r0_5, p1⟩, ⟨r0_1, p0⟩] (ix4 (0 : Fin 1) (0 : Fin 2) r j) = p0 (ix4 (0 : Fin 1) (0 : Fin 1) r j) := by
  refine (View.canon_cons_of_not_mem (Val := Elt Ideal) (⟨r0_5, p1⟩ : View.Piece (Elt Ideal) S1x2x1024x128 .f32)
    [⟨r0_1, p0⟩] (not_mem_r0_5 r j)).trans ?_
  rw [← idx_r0_1 r j]
  exact View.canon_cons_emb (Val := Elt Ideal) r0_1 p0 _ _

theorem out0_13_apply (r : Fin 1024) (j : Fin 128) :
    out0_13 (F := Ideal) x0 x1 x2 x3 x4 x5 x6 x7 x8 x9 x10 (ix2 r j)
      = Cert.Lstm.h2row W (Cert.Lstm.blkX x0 r) (Cert.Lstm.blkS x1 0 r) (Cert.Lstm.blkS x2 0 r) (Cert.Lstm.blkS x1 1 r)
          (Cert.Lstm.blkS x2 1 r) j := by
  unfold out0_13
  refine (congrFun (View.canon_unit_zero (Val := Elt Ideal)
    (funext fun a => by match a with | ⟨0, _⟩ => rfl | ⟨1, _⟩ => rfl) _ _) (ix2 r j)).trans ?_
  exact h2_blocks x0 x1 x2 x3 x4 x5 x6 x7 x8 x9 x10 r j

theorem out0_11_apply (l : Fin 2) (r : Fin 1024) (j : Fin 128) :
    out0_11 (F := Ideal) x0 x1 x2 x3 x4 x5 x6 x7 x8 x9 x10 (ix4 (0 : Fin 1) l r j)
      = if l.val = 0 then Cert.Lstm.h1row W (Cert.Lstm.blkX x0 r) (Cert.Lstm.blkS x1 0 r) (Cert.Lstm.blkS x2 0 r) j
        else Cert.Lstm.h2row W (Cert.Lstm.blkX x0 r) (Cert.Lstm.blkS x1 0 r) (Cert.Lstm.blkS x2 0 r) (Cert.Lstm.blkS x1 1 r)
          (Cert.Lstm.blkS x2 1 r) j := by
  unfold out0_11
  match l with
  | ⟨0, _⟩ =>
    rw [if_pos rfl]
    refine (canon_layer0 _ _ r j).trans ?_
    unfold k0_pay11
    refine (shapeCast_ab_11ab_apply _ _ 0 0 r j).trans ?_
    exact h1_blocks x0 x1 x2 x3 x4 x5 x6 x7 x8 x9 x10 r j
  | ⟨1, _⟩ =>
    rw [if_neg (show ¬ (1 : ℕ) = 0 by omega)]
    refine (canon_layer1 _ _ r j).trans ?_
    unfold k0_pay1
    refine (shapeCast_ab_11ab_apply _ _ 0 0 r j).trans ?_
    exact h2_blocks x0 x1 x2 x3 x4 x5 x6 x7 x8 x9 x10 r j

theorem out0_12_apply (l : Fin 2) (r : Fin 1024) (j : Fin 128) :
    out0_12 (F := Ideal) x0 x1 x2 x3 x4 x5 x6 x7 x8 x9 x10 (ix4 (0 : Fin 1) l r j)
      = if l.val = 0 then Cert.Lstm.c1row W (Cert.Lstm.blkX x0 r) (Cert.Lstm.blkS x1 0 r) (Cert.Lstm.blkS x2 0 r) j
        else Cert.Lstm.c2row W (Cert.Lstm.blkX x0 r) (Cert.Lstm.blkS x1 0 r) (Cert.Lstm.blkS x2 0 r) (Cert.Lstm.blkS x1 1 r)
          (Cert.Lstm.blkS x2 1 r) j := by
  unfold out0_12
  match l with
  | ⟨0, _⟩ =>
    rw [if_pos rfl]
    refine (canon_layer0 _ _ r j).trans ?_
    unfold k0_pay2
    refine (shapeCast_ab_11ab_apply _ _ 0 0 r j).trans ?_
    exact c1_blocks x0 x1 x2 x3 x4 x5 x6 x7 x8 x9 x10 r j
  | ⟨1, _⟩ =>
    rw [if_neg (show ¬ (1 : ℕ) = 0 by omega)]
    refine (canon_layer1 _ _ r j).trans ?_
    unfold k0_pay3
    refine (shapeCast_ab_11ab_apply _ _ 0 0 r j).trans ?_
    exact c2_blocks x0 x1 x2 x3 x4 x5 x6 x7 x8 x9 x10 r j

end Body

end Cert.Lstm.Body

end
-- ==== Proof.KernelEnc.lean ====
/-
  Window 13, the kernel's third output [2048, 8192]: the point (p, h) writes the block of rows h·1024 … and columns
  p·128 …, and what it writes at (r, j) is layer 1's new hidden state of row (p, h·1024 + r) at j. The blocks of the
  128 points tile the array, so after the run it holds that function everywhere; the host's final reshape to
  [2048, 64, 128] reads column p·128 + j at (p, j).
-/
import proofs.«168537_j49031346651728_2_alg».proof.Proof.KernelInputs
import proofs.«168537_j49031346651728_2_alg».proof.Proof.KernelBody

set_option maxRecDepth 16384

noncomputable section

namespace Cert.Lstm.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- What the point t writes back to window 13 is its block of the flat result. -/
theorem flushed13_eq (c : Dev nD) (t : Fin cfg0.N) :
    (dats m 0 c).flushed 13 t = ((cfg0.win 13).blk t).view.read (Elt Ideal) (Cert.Lstm.encFlat (args m c)) := by
  show (cfg0.win 13).cut (grid0.coords t) ((dats m 0 c).after 13 t) = _
  rw [after0_13]
  obtain ⟨-, -, -, -, -, -, -, -, -, -, -, -, -, -, -, -, -, -, -, h0, h1⟩ := idx_facts t
  funext y
  obtain ⟨r, j, rfl⟩ : ∃ (r : Fin 1024) (j : Fin 128), y = ix2 r j := ⟨y 0, y 1, eq_ix2 y⟩
  have hb : win0_13.index t (0 : Fin 2) * 1024 + r.val < 2048 := by have := r.isLt; omega
  have hp : win0_13.index t (1 : Fin 2) < 64 := by omega
  refine (Cert.Lstm.Body.out0_13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  rw [weights_eq m c t, rowX_eq m c t r ⟨_, hp⟩ ⟨_, hb⟩ rfl rfl,
    rowH_eq m c t r ⟨_, hp⟩ ⟨_, hb⟩ rfl rfl 0, rowC_eq m c t r ⟨_, hp⟩ ⟨_, hb⟩ rfl rfl 0,
    rowH_eq m c t r ⟨_, hp⟩ ⟨_, hb⟩ rfl rfl 1, rowC_eq m c t r ⟨_, hp⟩ ⟨_, hb⟩ rfl rfl 1]
  rw [View.read_apply]
  show Cert.Lstm.H2 (args m c) ⟨_, hp⟩ ⟨_, hb⟩ j = Cert.Lstm.encFlat (args m c) _
  unfold Cert.Lstm.encFlat
  have hj := j.isLt
  congr 1
  · apply Fin.ext
    show win0_13.index t (1 : Fin 2) = (win0_13.index t (1 : Fin 2) * 128 + 1 * j.val) / 128
    omega
  · apply Fin.ext
    show win0_13.index t (0 : Fin 2) * 1024 + r.val = win0_13.index t (0 : Fin 2) * 1024 + 1 * r.val
    omega
  · apply Fin.ext
    show j.val = (win0_13.index t (1 : Fin 2) * 128 + 1 * j.val) % 128
    omega

/-- An index of the array is in point t's block iff each coordinate is in the block's range on its axis. -/
theorem mem_blk13 (t : Fin cfg0.N) (i : S2048x8192.Idx) :
    i ∈ ((cfg0.win 13).blk t).view.set ↔ ∀ a : Fin 2, win0_13.index t a * S1024x128.size a ≤ (i a).val ∧ (i a).val < win0_13.index t a * S1024x128.size a + S1024x128.size a := by
  show i ∈ ((View.whole main_v1_2).slice (win0_13.rect t)).set ↔ _
  rw [View.set_slice_whole, Rect.mem_set_unit]
  exact Iff.rfl

/-- The 128 blocks tile the array. -/
theorem cover13 (i : S2048x8192.Idx) : ∃ t : Fin cfg0.N, (cfg0.win 13).flush t = true ∧ i ∈ ((cfg0.win 13).blk t).view.set := by
  have hi0 : (i 0).val < 2048 := (i 0).isLt
  have hi1 : (i 1).val < 8192 := (i 1).isLt
  obtain ⟨t, q0, q1⟩ := idx_onto ⟨(i 0).val / 1024, by omega⟩ ⟨(i 1).val / 128, by omega⟩
  have q0' : win0_13.index t (0 : Fin 2) = (i 0).val / 1024 := q0
  have q1' : win0_13.index t (1 : Fin 2) = (i 1).val / 128 := q1
  refine ⟨t, flush0_13 t, ?_⟩
  rw [mem_blk13]
  intro a
  match a with
  | ⟨0, _⟩ => show win0_13.index t (0 : Fin 2) * 1024 ≤ (i 0).val ∧ (i 0).val < win0_13.index t (0 : Fin 2) * 1024 + 1024; omega
  | ⟨1, _⟩ => show win0_13.index t (1 : Fin 2) * 128 ≤ (i 1).val ∧ (i 1).val < win0_13.index t (1 : Fin 2) * 128 + 128; omega

/-- After the run window 13's array is the flat result. -/
theorem final13 (c : Dev nD) : (dats m 0 c).arrAt 13 cfg0.N = Cert.Lstm.encFlat (args m c) :=
  (dats m 0 c).arrAt_eq_of_cover 13 (Cert.Lstm.encFlat (args m c)) (fun t _ => flushed13_eq m c t) cover13

/-- The host's reshape of the flat result is the first result. -/
theorem reshape_encFlat (A : Cert.Lstm.Args) :
    shapeCast S2048x64x128 (Cert.Lstm.encFlat A : Vec Ideal S2048x8192 .f32) shapeCasts_S2048x8192_S2048x64x128 = Cert.Lstm.enc A := by
  funext i
  obtain ⟨b, p, j, rfl⟩ : ∃ (b : Fin 2048) (p : Fin 64) (j : Fin 128), i = ix3 b p j := ⟨i 0, i 1, i 2, eq_ix3 i⟩
  have hp := p.isLt
  have hj := j.isLt
  refine (shapeCast_apply (Cert.Lstm.encFlat A : Vec Ideal S2048x8192 .f32) shapeCasts_S2048x8192_S2048x64x128 (ix3 b p j)
    (ix2 b ⟨p.val * 128 + j.val, by omega⟩) (by rewrite [Shape.rowMajor_val_two, Shape.rowMajor_val_three]; show b.val * 8192 + (p.val * 128 + j.val) = (b.val * 64 + p.val) * 128 + j.val; omega)).trans ?_
  show Cert.Lstm.H2 A ⟨(p.val * 128 + j.val) / 128, _⟩ b ⟨(p.val * 128 + j.val) % 128, _⟩ = Cert.Lstm.H2 A p b j
  congr 1
  · apply Fin.ext; show (p.val * 128 + j.val) / 128 = p.val; omega
  · apply Fin.ext; show (p.val * 128 + j.val) % 128 = j.val; omega

/-- The program's first result, as the frame run leaves it: the lines after the region reshape window 13's array. -/
theorem tail_enc (c : Dev nD) :
    Pipeline.afterTail₀ cfgs (dats m) 0 (V0 m) [hostOps1] c main_v2 = Cert.Lstm.enc (args m c) := by
  unfold Pipeline.afterTail₀
  show StableHlo.after hostOps1 _ (Proc.devRef .tc main_v2) = _
  after_results
  rw [show Pipeline.withArrays spec0 c (V0 m c) (fun w => (dats m 0 c).arrAt w cfg0.N) (Proc.devRef .tc main_v1_2) = Cert.Lstm.encFlat (args m c) from
    (Pipeline.withArrays_arr spec0 launch0.win.arr_inj c _ _ 13).trans (final13 m c)]
  exact reshape_encFlat (args m c)

end Cert.Lstm.Arr

end
-- ==== Proof.KernelHnext.lean ====
/-
  Window 11, the kernel's first output [64, 2, 2048, 128]: the point (p, h) writes the block [p, both layers,
  rows h·1024 …, all 128 columns], and what it writes at (l, r, j) is layer l's new hidden state of row
  (p, h·1024 + r) at j. The blocks of the 128 points tile the array, so after the run it holds the new hidden states.
-/
import proofs.«168537_j49031346651728_2_alg».proof.Proof.KernelInputs
import proofs.«168537_j49031346651728_2_alg».proof.Proof.KernelBody

set_option maxRecDepth 16384

noncomputable section

namespace Cert.Lstm.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- What the point t writes back to window 11 is its block of the result. -/
theorem flushed11_eq (c : Dev nD) (t : Fin cfg0.N) :
    (dats m 0 c).flushed 11 t = ((cfg0.win 11).blk t).view.read (Elt Ideal) (Cert.Lstm.hnext (args m c)) := by
  show (cfg0.win 11).cut (grid0.coords t) ((dats m 0 c).after 11 t) = _
  rw [after0_11]
  obtain ⟨-, -, -, -, -, -, -, -, -, -, -, e0, e1, e2, e3, -, -, -, -, h0, h1⟩ := idx_facts t
  funext y
  obtain ⟨z, l, r, j, rfl⟩ : ∃ (z : Fin 1) (l : Fin 2) (r : Fin 1024) (j : Fin 128), y = ix4 z l r j := ⟨y 0, y 1, y 2, y 3, eq_ix4 y⟩
  obtain rfl : z = (0 : Fin 1) := Subsingleton.elim _ _
  have hb : win0_13.index t (0 : Fin 2) * 1024 + r.val < 2048 := by have := r.isLt; omega
  have hp : win0_13.index t (1 : Fin 2) < 64 := by omega
  refine (Cert.Lstm.Body.out0_11_apply (iblk m c 0 t) (iblk m c 1 t) (iblk m c 2 t) (iblk m c 3 t) (iblk m c 4 t) (iblk m c 5 t) (iblk m c 6 t) (iblk m c 7 t) (iblk m c 8 t) (iblk m c 9 t) (iblk m c 10 t) l r j).trans ?_
  rw [weights_eq m c t, rowX_eq m c t r ⟨_, hp⟩ ⟨_, hb⟩ rfl rfl,
    rowH_eq m c t r ⟨_, hp⟩ ⟨_, hb⟩ rfl rfl 0, rowC_eq m c t r ⟨_, hp⟩ ⟨_, hb⟩ rfl rfl 0,
    rowH_eq m c t r ⟨_, hp⟩ ⟨_, hb⟩ rfl rfl 1, rowC_eq m c t r ⟨_, hp⟩ ⟨_, hb⟩ rfl rfl 1]
  rw [View.read_apply]
  have he : ((cfg0.win 11).blk t).view.emb (ix4 (0 : Fin 1) l r j)
      = (ix4 (⟨_, hp⟩ : Fin 64) l (⟨_, hb⟩ : Fin 2048) j : S64x2x2048x128.Idx) := by
    funext a; apply Fin.ext
    have hl := l.isLt
    have hj := j.isLt
    match a with
    | ⟨0, _⟩ => show win0_11.index t (0 : Fin 4) * 1 + 1 * 0 = win0_13.index t (1 : Fin 2); omega
    | ⟨1, _⟩ => show win0_11.index t (1 : Fin 4) * 2 + 1 * l.val = l.val; omega
    | ⟨2, _⟩ => show win0_11.index t (2 : Fin 4) * 1024 + 1 * r.val = win0_13.index t (0 : Fin 2) * 1024 + r.val; omega
    | ⟨3, _⟩ => show win0_11.index t (3 : Fin 4) * 128 + 1 * j.val = j.val; omega
  rw [he]
  rfl

/-- An index of the array is in point t's block iff each coordinate is in the block's range on its axis. -/
theorem mem_blk11 (t : Fin cfg0.N) (i : S64x2x2048x128.Idx) :
    i ∈ ((cfg0.win 11).blk t).view.set ↔ ∀ a : Fin 4, win0_11.index t a * S1x2x1024x128.size a ≤ (i a).val ∧ (i a).val < win0_11.index t a * S1x2x1024x128.size a + S1x2x1024x128.size a := by
  show i ∈ ((View.whole main_v1_0).slice (win0_11.rect t)).set ↔ _
  rw [View.set_slice_whole, Rect.mem_set_unit]
  exact Iff.rfl

/-- The 128 blocks tile the array. -/
theorem cover11 (i : S64x2x2048x128.Idx) : ∃ t : Fin cfg0.N, (cfg0.win 11).flush t = true ∧ i ∈ ((cfg0.win 11).blk t).view.set := by
  have hi0 : (i 0).val < 64 := (i 0).isLt
  have hi1 : (i 1).val < 2 := (i 1).isLt
  have hi2 : (i 2).val < 2048 := (i 2).isLt
  have hi3 : (i 3).val < 128 := (i 3).isLt
  obtain ⟨t, q0, q1⟩ := idx_onto ⟨(i 2).val / 1024, by omega⟩ ⟨(i 0).val, hi0⟩
  have q0' : win0_13.index t (0 : Fin 2) = (i 2).val / 1024 := q0
  have q1' : win0_13.index t (1 : Fin 2) = (i 0).val := q1
  obtain ⟨-, -, -, -, -, -, -, -, -, -, -, e0, e1, e2, e3, -, -, -, -, -⟩ := idx_facts t
  refine ⟨t, flush0_11 t, ?_⟩
  rw [mem_blk11]
  intro a
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 2 ≤ (i 1).val ∧ (i 1).val < win0_11.index t (1 : Fin 4) * 2 + 2; omega
  | ⟨2, _⟩ => show win0_11.index t (2 : Fin 4) * 1024 ≤ (i 2).val ∧ (i 2).val < win0_11.index t (2 : Fin 4) * 1024 + 1024; omega
  | ⟨3, _⟩ => show win0_11.index t (3 : Fin 4) * 128 ≤ (i 3).val ∧ (i 3).val < win0_11.index t (3 : Fin 4) * 128 + 128; omega

/-- After the run window 11's array is the result. -/
theorem final11 (c : Dev nD) : (dats m 0 c).arrAt 11 cfg0.N = Cert.Lstm.hnext (args m c) :=
  (dats m 0 c).arrAt_eq_of_cover 11 (Cert.Lstm.hnext (args m c)) (fun t _ => flushed11_eq m c t) cover11

end Cert.Lstm.Arr

end
-- ==== Proof.KernelCnext.lean ====
/-
  Window 12, the kernel's second output [64, 2, 2048, 128]: the point (p, h) writes the block [p, both layers,
  rows h·1024 …, all 128 columns], and what it writes at (l, r, j) is layer l's new cell state of row
  (p, h·1024 + r) at j. The blocks of the 128 points tile the array, so after the run it holds the new cell states.
-/
import proofs.«168537_j49031346651728_2_alg».proof.Proof.KernelInputs
import proofs.«168537_j49031346651728_2_alg».proof.Proof.KernelBody

set_option maxRecDepth 16384

noncomputable section

namespace Cert.Lstm.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- What the point t writes back to window 12 is its block of the result. -/
theorem flushed12_eq (c : Dev nD) (t : Fin cfg0.N) :
    (dats m 0 c).flushed 12 t = ((cfg0.win 12).blk t).view.read (Elt Ideal) (Cert.Lstm.cnext (args m c)) := by
  show (cfg0.win 12).cut (grid0.coords t) ((dats m 0 c).after 12 t) = _
  rw [after0_12]
  obtain ⟨-, -, -, -, -, -, -, -, -, -, -, -, -, -, -, e0, e1, e2, e3, h0, h1⟩ := idx_facts t
  funext y
  obtain ⟨z, l, r, j, rfl⟩ : ∃ (z : Fin 1) (l : Fin 2) (r : Fin 1024) (j : Fin 128), y = ix4 z l r j := ⟨y 0, y 1, y 2, y 3, eq_ix4 y⟩
  obtain rfl : z = (0 : Fin 1) := Subsingleton.elim _ _
  have hb : win0_13.index t (0 : Fin 2) * 1024 + r.val < 2048 := by have := r.isLt; omega
  have hp : win0_13.index t (1 : Fin 2) < 64 := by omega
  refine (Cert.Lstm.Body.out0_12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) l r j).trans ?_
  rw [weights_eq m c t, rowX_eq m c t r ⟨_, hp⟩ ⟨_, hb⟩ rfl rfl,
    rowH_eq m c t r ⟨_, hp⟩ ⟨_, hb⟩ rfl rfl 0, rowC_eq m c t r ⟨_, hp⟩ ⟨_, hb⟩ rfl rfl 0,
    rowH_eq m c t r ⟨_, hp⟩ ⟨_, hb⟩ rfl rfl 1, rowC_eq m c t r ⟨_, hp⟩ ⟨_, hb⟩ rfl rfl 1]
  rw [View.read_apply]
  have he : ((cfg0.win 12).blk t).view.emb (ix4 (0 : Fin 1) l r j)
      = (ix4 (⟨_, hp⟩ : Fin 64) l (⟨_, hb⟩ : Fin 2048) j : S64x2x2048x128.Idx) := by
    funext a; apply Fin.ext
    have hl := l.isLt
    have hj := j.isLt
    match a with
    | ⟨0, _⟩ => show win0_12.index t (0 : Fin 4) * 1 + 1 * 0 = win0_13.index t (1 : Fin 2); omega
    | ⟨1, _⟩ => show win0_12.index t (1 : Fin 4) * 2 + 1 * l.val = l.val; omega
    | ⟨2, _⟩ => show win0_12.index t (2 : Fin 4) * 1024 + 1 * r.val = win0_13.index t (0 : Fin 2) * 1024 + r.val; omega
    | ⟨3, _⟩ => show win0_12.index t (3 : Fin 4) * 128 + 1 * j.val = j.val; omega
  rw [he]
  rfl

/-- An index of the array is in point t's block iff each coordinate is in the block's range on its axis. -/
theorem mem_blk12 (t : Fin cfg0.N) (i : S64x2x2048x128.Idx) :
    i ∈ ((cfg0.win 12).blk t).view.set ↔ ∀ a : Fin 4, win0_12.index t a * S1x2x1024x128.size a ≤ (i a).val ∧ (i a).val < win0_12.index t a * S1x2x1024x128.size a + S1x2x1024x128.size a := by
  show i ∈ ((View.whole main_v1_1).slice (win0_12.rect t)).set ↔ _
  rw [View.set_slice_whole, Rect.mem_set_unit]
  exact Iff.rfl

/-- The 128 blocks tile the array. -/
theorem cover12 (i : S64x2x2048x128.Idx) : ∃ t : Fin cfg0.N, (cfg0.win 12).flush t = true ∧ i ∈ ((cfg0.win 12).blk t).view.set := by
  have hi0 : (i 0).val < 64 := (i 0).isLt
  have hi1 : (i 1).val < 2 := (i 1).isLt
  have hi2 : (i 2).val < 2048 := (i 2).isLt
  have hi3 : (i 3).val < 128 := (i 3).isLt
  obtain ⟨t, q0, q1⟩ := idx_onto ⟨(i 2).val / 1024, by omega⟩ ⟨(i 0).val, hi0⟩
  have q0' : win0_13.index t (0 : Fin 2) = (i 2).val / 1024 := q0
  have q1' : win0_13.index t (1 : Fin 2) = (i 0).val := q1
  obtain ⟨-, -, -, -, -, -, -, -, -, -, -, -, -, -, -, e0, e1, e2, e3, -⟩ := idx_facts t
  refine ⟨t, flush0_12 t, ?_⟩
  rw [mem_blk12]
  intro a
  match a with
  | ⟨0, _⟩ => show win0_12.index t (0 : Fin 4) * 1 ≤ (i 0).val ∧ (i 0).val < win0_12.index t (0 : Fin 4) * 1 + 1; omega
  | ⟨1, _⟩ => show win0_12.index t (1 : Fin 4) * 2 ≤ (i 1).val ∧ (i 1).val < win0_12.index t (1 : Fin 4) * 2 + 2; omega
  | ⟨2, _⟩ => show win0_12.index t (2 : Fin 4) * 1024 ≤ (i 2).val ∧ (i 2).val < win0_12.index t (2 : Fin 4) * 1024 + 1024; omega
  | ⟨3, _⟩ => show win0_12.index t (3 : Fin 4) * 128 ≤ (i 3).val ∧ (i 3).val < win0_12.index t (3 : Fin 4) * 128 + 128; omega

/-- After the run window 12's array is the result. -/
theorem final12 (c : Dev nD) : (dats m 0 c).arrAt 12 cfg0.N = Cert.Lstm.cnext (args m c) :=
  (dats m 0 c).arrAt_eq_of_cover 12 (Cert.Lstm.cnext (args m c)) (fun t _ => flushed12_eq m c t) cover12

end Cert.Lstm.Arr

end
-- ==== Proof.KernelRun.lean ====
/-
  The kernel's run, read: every weakly fair execution ends with the three results at the two-layer LSTM step of the
  arguments — the first through the host's final reshape of window 13's array, the other two windows 11's and 12's
  arrays — and the arguments unchanged.
-/
import proofs.«168537_j49031346651728_2_alg».proof.Proof.KernelEnc
import proofs.«168537_j49031346651728_2_alg».proof.Proof.KernelHnext
import proofs.«168537_j49031346651728_2_alg».proof.Proof.KernelCnext

noncomputable section

namespace Cert.Lstm.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

variable (ρ : Dev nD → PrngReg)

theorem run : θ_run defs (onTc (τ := τ) (main (F := Ideal))) ⟨m, fun _ => 0, ρ⟩ fun r => ∀ c : Dev nD,
      r.2.mem ((c.tc : Thread nD τ).loc main_v2) = Cert.Lstm.enc (args m c)
      ∧ r.2.mem ((c.tc : Thread nD τ).loc main_v1_0) = Cert.Lstm.hnext (args m c)
      ∧ r.2.mem ((c.tc : Thread nD τ).loc main_v1_1) = Cert.Lstm.cnext (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).2 main_v2 (Pipeline.mem_restRefs_of main_v2 (by decide) (by decide))).trans (tail_enc m c),
      ((h c).1 11).trans (final11 m c),
      ((h c).1 12).trans (final12 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

end Cert.Lstm.Arr

end
-- ==== Proof.RefBase.lean ====
/-
  The reference side's small change: the flat row number of a row (p, b), the arithmetic of folding and unfolding
  the axes (p, b, j) ↔ (p · 2048 + b, j), the number one as a 32-bit word, and a join of two one-layer arrays
  along the layer axis read at an index.
-/
import proofs.«168537_j49031346651728_2_alg».proof.ReferenceIdeal
import proofs.«168537_j49031346651728_2_alg».proof.Proof.Spec
import Idealize.ShloMosaic.Lib.Pipeline.Value
import Idealize.ShloMosaic.Lib.ValueIdx
import Idealize.ShloMosaic.PureOps.Ideal.Laws

noncomputable section

open scoped BigOperators

namespace Cert.Lstm.Ref

open Cert.ReferenceIdeal Idealize.ShloMosaic Idealize.ShloMosaic.ValueIdx

/-- The flat row number of row (p, b): p · 2048 + b. -/
def row (p : Fin 64) (b : Fin 2048) : Fin 131072 :=
  ⟨p.val * 2048 + b.val, by have := p.isLt; have := b.isLt; omega⟩

theorem row_val (p : Fin 64) (b : Fin 2048) : (row p b).val = p.val * 2048 + b.val := rfl

/-- Element (p·2048 + b, j) of a [131072, 128] array is element number ((p·2048 + b)·128 + j); cut again into
    [64, 2048, 128] it is (p, b, j). -/
theorem unflat128 (p b j : Nat) (hb : b < 2048) (hj : j < 128) :
    ((p * 2048 + b) * 128 + j) / 262144 = p ∧ ((p * 2048 + b) * 128 + j) / 128 % 2048 = b
      ∧ ((p * 2048 + b) * 128 + j) % 128 = j := by omega

/-- The other way: element (p, b, j) of [64, 2048, 128] sits in row p·2048 + b, column j, of [131072, 128]. -/
theorem flat128 (p b j : Nat) (hj : j < 128) :
    ((p * 2048 + b) * 128 + j) / 128 = p * 2048 + b ∧ ((p * 2048 + b) * 128 + j) % 128 = j := by omega

/-- The same for the two-column input: element (p·2048 + b, k) of [131072, 2] is (p, b, k) of [64, 2048, 2]. -/
theorem unflat2 (p b k : Nat) (hb : b < 2048) (hk : k < 2) :
    ((p * 2048 + b) * 2 + k) / 4096 = p ∧ ((p * 2048 + b) * 2 + k) / 2 % 2048 = b ∧ ((p * 2048 + b) * 2 + k) % 2 = k := by
  omega

/-- The word 0x3F800000 is the number one. -/
theorem ofBits_one : Ideal.ofBits .f32 0x3F800000#32 = 1 := by
  simp [Ideal.ofBits, Ideal.ieee]
  rw [← EReal.coe_mul, ← EReal.coe_one]
  congr 1
  norm_num

/-- The logistic function spelt 1 / (1 + exp (−x)) with that word for the ones. -/
theorem logistic_spelt (x : EReal) :
    Ideal.div (Ideal.ofBits .f32 0x3F800000#32) (Ideal.ofBits .f32 0x3F800000#32 + Ideal.exp (-x)) = Ideal.logistic x := by
  rw [ofBits_one]; rfl

/-- Two [64, 1, 2048, 128] arrays joined along axis 1, read at (p, l, b, j): the first array at layer 0, the second
    at layer 1, each at (p, 0, b, j). -/
theorem concat_layers {α : Type} (y0 y1 : S64x1x2048x128.Idx → α)
    (h : Shape.Concatenates [S64x1x2048x128, S64x1x2048x128] S64x2x2048x128 1) (p : Fin 64) (l : Fin 2) (b : Fin 2048) (j : Fin 128) :
    concatenate S64x2x2048x128 1 [⟨S64x1x2048x128, y0⟩, ⟨S64x1x2048x128, y1⟩] h (ix4 p l b j)
      = if l.val = 0 then y0 (ix4 p 0 b j) else y1 (ix4 p 0 b j) := by
  split
  · next hl =>
    refine concatenate_pair_apply_left _ y0 y1 h (ix4 p l b j) rfl (ix4 p 0 b j) (fun a => ?_)
    match a with
    | ⟨0, _⟩ => rfl
    | ⟨1, _⟩ => exact hl.symm
    | ⟨2, _⟩ => rfl
    | ⟨3, _⟩ => rfl
  · next hl =>
    refine concatenate_pair_apply_right _ y0 y1 h (ix4 p l b j) rfl rfl (ix4 p 0 b j) (fun a ha => ?_) ?_
    · match a with
      | ⟨0, _⟩ => rfl
      | ⟨1, _⟩ => exact absurd rfl ha
      | ⟨2, _⟩ => rfl
      | ⟨3, _⟩ => rfl
    · show 0 + 1 = l.val
      have := l.isLt; omega

end Cert.Lstm.Ref

end
-- ==== Proof.RefLayer0.lean ====
/-
  Layer 0 of the reference, read row by row. The reference folds the rows (p, b) into one axis of 131072 rows, row
  number p · 2048 + b. At that row: the input, the old hidden and cell states of layer 0, the 512 gate
  pre-activations, the new cell state and the new hidden state are the specification's.
-/
import proofs.«168537_j49031346651728_2_alg».proof.Proof.Gen.ReferenceIdeal.Read
import proofs.«168537_j49031346651728_2_alg».proof.Proof.Spec
import proofs.«168537_j49031346651728_2_alg».proof.Proof.RefBase

noncomputable section

open scoped BigOperators

namespace Cert.Lstm.Ref

open Cert.ReferenceIdeal Cert.ReferenceIdeal.Read Idealize.ShloMosaic Idealize.ShloMosaic.ValueIdx

/-! ## The three inputs of layer 0 at a row -/

/-- The folded input at row p·2048 + b, column k, is X[b, p, k]. -/
theorem x_row (x0 : FVec Ideal S2048x64x2 .f32) (p : Fin 64) (b : Fin 2048) (k : Fin 2) :
    val_main_v1 (F := Ideal) x0 (ix2 (row p b) k) = x0 (ix3 b p k) := by
  have e1 : idx_main_v1 (ix2 (row p b) k) = ix3 p b k := funext fun a => Fin.ext (by
    match a with
    | ⟨0, _⟩ => exact (unflat2 p.val b.val k.val b.isLt k.isLt).1
    | ⟨1, _⟩ => exact (unflat2 p.val b.val k.val b.isLt k.isLt).2.1
    | ⟨2, _⟩ => exact (unflat2 p.val b.val k.val b.isLt k.isLt).2.2)
  have e0 : idx_main_v0 (ix3 p b k) = ix3 b p k := funext fun a => by
    match a with
    | ⟨0, _⟩ => rfl
    | ⟨1, _⟩ => rfl
    | ⟨2, _⟩ => rfl
  rw [val_main_v1_apply, e1, val_main_v0_apply, e0]

/-- The folded old hidden state of layer 0 at row p·2048 + b, column j, is H0[p, 0, b, j]. -/
theorem h0_row (x1 : FVec Ideal S64x2x2048x128 .f32) (p : Fin 64) (b : Fin 2048) (j : Fin 128) :
    val_main_v4 (F := Ideal) x1 (ix2 (row p b) j) = x1 (ix4 p 0 b j) := by
  have e4 : idx_main_v4 (ix2 (row p b) j) = ix3 p b j := funext fun a => Fin.ext (by
    match a with
    | ⟨0, _⟩ => exact (unflat128 p.val b.val j.val b.isLt j.isLt).1
    | ⟨1, _⟩ => exact (unflat128 p.val b.val j.val b.isLt j.isLt).2.1
    | ⟨2, _⟩ => exact (unflat128 p.val b.val j.val b.isLt j.isLt).2.2)
  have e3 : idx_main_v3 (ix3 p b j) = ix4 p 0 b j := funext fun a => Fin.ext (by
    match a with
    | ⟨0, _⟩ => exact (unflat128 p.val b.val j.val b.isLt j.isLt).1
    | ⟨1, _⟩ => rfl
    | ⟨2, _⟩ => exact (unflat128 p.val b.val j.val b.isLt j.isLt).2.1
    | ⟨3, _⟩ => exact (unflat128 p.val b.val j.val b.isLt j.isLt).2.2)
  have e2 : idx_main_v2 (ix4 p 0 b j) = ix4 p 0 b j := funext fun a => Fin.ext (by
    match a with
    | ⟨0, _⟩ => rfl
    | ⟨1, _⟩ => rfl
    | ⟨2, _⟩ => rfl
    | ⟨3, _⟩ => rfl)
  rw [val_main_v4_apply, e4, val_main_v3_apply, e3, val_main_v2_apply, e2]

/-- The folded old cell state of layer 0 at row p·2048 + b, column j, is C0[p, 0, b, j]. -/
theorem c0_row (x2 : FVec Ideal S64x2x2048x128 .f32) (p : Fin 64) (b : Fin 2048) (j : Fin 128) :
    val_main_v7 (F := Ideal) x2 (ix2 (row p b) j) = x2 (ix4 p 0 b j) := by
  have e7 : idx_main_v7 (ix2 (row p b) j) = ix3 p b j := funext fun a => Fin.ext (by
    match a with
    | ⟨0, _⟩ => exact (unflat128 p.val b.val j.val b.isLt j.isLt).1
    | ⟨1, _⟩ => exact (unflat128 p.val b.val j.val b.isLt j.isLt).2.1
    | ⟨2, _⟩ => exact (unflat128 p.val b.val j.val b.isLt j.isLt).2.2)
  have e6 : idx_main_v6 (ix3 p b j) = ix4 p 0 b j := funext fun a => Fin.ext (by
    match a with
    | ⟨0, _⟩ => exact (unflat128 p.val b.val j.val b.isLt j.isLt).1
    | ⟨1, _⟩ => rfl
    | ⟨2, _⟩ => exact (unflat128 p.val b.val j.val b.isLt j.isLt).2.1
    | ⟨3, _⟩ => exact (unflat128 p.val b.val j.val b.isLt j.isLt).2.2)
  have e5 : idx_main_v5 (ix4 p 0 b j) = ix4 p 0 b j := funext fun a => Fin.ext (by
    match a with
    | ⟨0, _⟩ => rfl
    | ⟨1, _⟩ => rfl
    | ⟨2, _⟩ => rfl
    | ⟨3, _⟩ => rfl)
  rw [val_main_v7_apply, e7, val_main_v6_apply, e6, val_main_v5_apply, e5]

/-! ## The gates of layer 0 at a row -/

/-- The 512 gate pre-activations of row (p, b): the two products' sums over k and the two biases' sum. The
    transposed weight matrices read back at (k, q) are the weights at (q, k). -/
theorem gates0 (x0 : FVec Ideal S2048x64x2 .f32) (x1 x2 : FVec Ideal S64x2x2048x128 .f32) (x3 : FVec Ideal S512x2 .f32) (x4 : FVec Ideal S512x128 .f32) (x5 x6 : FVec Ideal S512 .f32) (x7 x8 : FVec Ideal S512x128 .f32) (x9 x10 : FVec Ideal S512 .f32) (p : Fin 64) (b : Fin 2048) (q : Fin 512) :
    val_main_v16 (F := Ideal) x0 x1 x3 x4 x5 x6 (ix2 (row p b) q)
      = gate ((Args.ofArrays x0 x1 x2 x3 x4 x5 x6 x7 x8 x9 x10).x p b) ((Args.ofArrays x0 x1 x2 x3 x4 x5 x6 x7 x8 x9 x10).h 0 p b)
          (Args.ofArrays x0 x1 x2 x3 x4 x5 x6 x7 x8 x9 x10).W.Wih0 (Args.ofArrays x0 x1 x2 x3 x4 x5 x6 x7 x8 x9 x10).W.Whh0
          (Args.ofArrays x0 x1 x2 x3 x4 x5 x6 x7 x8 x9 x10).W.bih0 (Args.ofArrays x0 x1 x2 x3 x4 x5 x6 x7 x8 x9 x10).W.bhh0 q := by
  have e9l : ∀ k : Fin 2, lidx_main_v9 (ix2 (row p b) q) k = ix2 (row p b) k := fun k => funext fun a => by
    match a with
    | ⟨0, _⟩ => rfl
    | ⟨1, _⟩ => rfl
  have e9r : ∀ k : Fin 2, idx_main_v8 (ridx_main_v9 (ix2 (row p b) q) k) = ix2 q k := fun k => funext fun a => by
    match a with
    | ⟨0, _⟩ => rfl
    | ⟨1, _⟩ => rfl
  have e11l : ∀ k : Fin 128, lidx_main_v11 (ix2 (row p b) q) k = ix2 (row p b) k := fun k => funext fun a => by
    match a with
    | ⟨0, _⟩ => rfl
    | ⟨1, _⟩ => rfl
  have e11r : ∀ k : Fin 128, idx_main_v10 (ridx_main_v11 (ix2 (row p b) q) k) = ix2 q k := fun k => funext fun a => by
    match a with
    | ⟨0, _⟩ => rfl
    | ⟨1, _⟩ => rfl
  have e15 : idx_main_v14 (idx_main_v15 (ix2 (row p b) q)) = ix1 q := funext fun a => by
    match a with
    | ⟨0, _⟩ => rfl
  rw [val_main_v16_apply, val_main_v12_apply, val_main_v9_apply, val_main_v11_apply, val_main_v15_apply,
    val_main_v14_apply, val_main_v13_apply, e15]
  simp only [val_main_v8_apply, val_main_v10_apply, e9l, e9r, e11l, e11r, x_row, h0_row, Ideal.addf_def]
  rfl

/-! ## The new cell and hidden states of layer 0 at a row -/

/-- Where the four slices of the gates read: columns j, 128 + j, 256 + j, 384 + j of the same row. -/
theorem slice_I (r : Fin 131072) (j : Fin 128) : idx_main_v17 (ix2 r j) = ix2 r (gI j) := funext fun a => Fin.ext (by
  match a with
  | ⟨0, _⟩ => rfl
  | ⟨1, _⟩ => exact (Nat.zero_add _).symm)
theorem slice_F (r : Fin 131072) (j : Fin 128) : idx_main_v18 (ix2 r j) = ix2 r (gF j) := funext fun a => Fin.ext (by
  match a with
  | ⟨0, _⟩ => rfl
  | ⟨1, _⟩ => rfl)
theorem slice_G (r : Fin 131072) (j : Fin 128) : idx_main_v19 (ix2 r j) = ix2 r (gG j) := funext fun a => Fin.ext (by
  match a with
  | ⟨0, _⟩ => rfl
  | ⟨1, _⟩ => rfl)
theorem slice_O (r : Fin 131072) (j : Fin 128) : idx_main_v20 (ix2 r j) = ix2 r (gO j) := funext fun a => Fin.ext (by
  match a with
  | ⟨0, _⟩ => rfl
  | ⟨1, _⟩ => rfl)

/-- Layer 0's new cell state at row (p, b). -/
theorem c1_row (x0 : FVec Ideal S2048x64x2 .f32) (x1 x2 : FVec Ideal S64x2x2048x128 .f32) (x3 : FVec Ideal S512x2 .f32) (x4 : FVec Ideal S512x128 .f32) (x5 x6 : FVec Ideal S512 .f32) (x7 x8 : FVec Ideal S512x128 .f32) (x9 x10 : FVec Ideal S512 .f32) (p : Fin 64) (b : Fin 2048) (j : Fin 128) :
    val_main_v36 (F := Ideal) x0 x1 x2 x3 x4 x5 x6 (ix2 (row p b) j) = C1 (Args.ofArrays x0 x1 x2 x3 x4 x5 x6 x7 x8 x9 x10) p b j := by
  rw [val_main_v36_apply, val_main_v27_apply, val_main_v26_apply, val_main_v25_apply, val_main_cst_0_apply,
    val_main_v24_apply, val_main_v23_apply, val_main_cst_apply, val_main_v22_apply, val_main_v21_apply,
    val_main_v18_apply, slice_F, val_main_v35_apply, val_main_v33_apply, val_main_v32_apply, val_main_cst_2_apply,
    val_main_v31_apply, val_main_v30_apply, val_main_cst_1_apply, val_main_v29_apply, val_main_v28_apply,
    val_main_v17_apply, slice_I, val_main_v34_apply, val_main_v19_apply, slice_G, c0_row]
  simp only [gates0 x0 x1 x2 x3 x4 x5 x6 x7 x8 x9 x10, Ideal.addf_def, Ideal.mulf_def, Ideal.hostDivf_def, Ideal.hostNegf_def,
    Ideal.negf_def, Ideal.hostUnary_exp_def, Ideal.hostUnary_tanh_def, Ideal.ofBits_def, logistic_spelt]
  rfl

/-- Layer 0's new hidden state at row (p, b). -/
theorem h1_row (x0 : FVec Ideal S2048x64x2 .f32) (x1 x2 : FVec Ideal S64x2x2048x128 .f32) (x3 : FVec Ideal S512x2 .f32) (x4 : FVec Ideal S512x128 .f32) (x5 x6 : FVec Ideal S512 .f32) (x7 x8 : FVec Ideal S512x128 .f32) (x9 x10 : FVec Ideal S512 .f32) (p : Fin 64) (b : Fin 2048) (j : Fin 128) :
    val_main_v44 (F := Ideal) x0 x1 x2 x3 x4 x5 x6 (ix2 (row p b) j) = H1 (Args.ofArrays x0 x1 x2 x3 x4 x5 x6 x7 x8 x9 x10) p b j := by
  rw [val_main_v44_apply, val_main_v42_apply, val_main_v41_apply, val_main_cst_4_apply, val_main_v40_apply,
    val_main_v39_apply, val_main_cst_3_apply, val_main_v38_apply, val_main_v37_apply, val_main_v20_apply, slice_O,
    val_main_v43_apply, c1_row x0 x1 x2 x3 x4 x5 x6 x7 x8 x9 x10]
  simp only [gates0 x0 x1 x2 x3 x4 x5 x6 x7 x8 x9 x10, Ideal.addf_def, Ideal.mulf_def, Ideal.hostDivf_def, Ideal.hostNegf_def,
    Ideal.negf_def, Ideal.hostUnary_exp_def, Ideal.hostUnary_tanh_def, Ideal.ofBits_def, logistic_spelt]
  rfl

end Cert.Lstm.Ref

end
-- ==== Proof.RefLayer1.lean ====
/-
  Layer 1 of the reference, read row by row: its input is layer 0's new hidden state of the same row; its old
  states are layer 1's slices of the state arrays. At row p · 2048 + b the gate pre-activations, the new cell state
  and the new hidden state are the specification's.
-/
import proofs.«168537_j49031346651728_2_alg».proof.Proof.Gen.ReferenceIdeal.Read
import proofs.«168537_j49031346651728_2_alg».proof.Proof.Spec
import proofs.«168537_j49031346651728_2_alg».proof.Proof.RefBase
import proofs.«168537_j49031346651728_2_alg».proof.Proof.RefLayer0

noncomputable section

open scoped BigOperators

namespace Cert.Lstm.Ref

open Cert.ReferenceIdeal Cert.ReferenceIdeal.Read Idealize.ShloMosaic Idealize.ShloMosaic.ValueIdx

/-! ## The old states of layer 1 at a row -/

/-- The folded old hidden state of layer 1 at row p·2048 + b, column j, is H0[p, 1, b, j]. -/
theorem h01_row (x1 : FVec Ideal S64x2x2048x128 .f32) (p : Fin 64) (b : Fin 2048) (j : Fin 128) :
    val_main_v47 (F := Ideal) x1 (ix2 (row p b) j) = x1 (ix4 p 1 b j) := by
  have e4 : idx_main_v47 (ix2 (row p b) j) = ix3 p b j := funext fun a => Fin.ext (by
    match a with
    | ⟨0, _⟩ => exact (unflat128 p.val b.val j.val b.isLt j.isLt).1
    | ⟨1, _⟩ => exact (unflat128 p.val b.val j.val b.isLt j.isLt).2.1
    | ⟨2, _⟩ => exact (unflat128 p.val b.val j.val b.isLt j.isLt).2.2)
  have e3 : idx_main_v46 (ix3 p b j) = ix4 p 0 b j := funext fun a => Fin.ext (by
    match a with
    | ⟨0, _⟩ => exact (unflat128 p.val b.val j.val b.isLt j.isLt).1
    | ⟨1, _⟩ => rfl
    | ⟨2, _⟩ => exact (unflat128 p.val b.val j.val b.isLt j.isLt).2.1
    | ⟨3, _⟩ => exact (unflat128 p.val b.val j.val b.isLt j.isLt).2.2)
  have e2 : idx_main_v45 (ix4 p 0 b j) = ix4 p 1 b j := funext fun a => Fin.ext (by
    match a with
    | ⟨0, _⟩ => rfl
    | ⟨1, _⟩ => rfl
    | ⟨2, _⟩ => rfl
    | ⟨3, _⟩ => rfl)
  rw [val_main_v47_apply, e4, val_main_v46_apply, e3, val_main_v45_apply, e2]

/-- The folded old cell state of layer 1 at row p·2048 + b, column j, is C0[p, 1, b, j]. -/
theorem c01_row (x2 : FVec Ideal S64x2x2048x128 .f32) (p : Fin 64) (b : Fin 2048) (j : Fin 128) :
    val_main_v50 (F := Ideal) x2 (ix2 (row p b) j) = x2 (ix4 p 1 b j) := by
  have e4 : idx_main_v50 (ix2 (row p b) j) = ix3 p b j := funext fun a => Fin.ext (by
    match a with
    | ⟨0, _⟩ => exact (unflat128 p.val b.val j.val b.isLt j.isLt).1
    | ⟨1, _⟩ => exact (unflat128 p.val b.val j.val b.isLt j.isLt).2.1
    | ⟨2, _⟩ => exact (unflat128 p.val b.val j.val b.isLt j.isLt).2.2)
  have e3 : idx_main_v49 (ix3 p b j) = ix4 p 0 b j := funext fun a => Fin.ext (by
    match a with
    | ⟨0, _⟩ => exact (unflat128 p.val b.val j.val b.isLt j.isLt).1
    | ⟨1, _⟩ => rfl
    | ⟨2, _⟩ => exact (unflat128 p.val b.val j.val b.isLt j.isLt).2.1
    | ⟨3, _⟩ => exact (unflat128 p.val b.val j.val b.isLt j.isLt).2.2)
  have e2 : idx_main_v48 (ix4 p 0 b j) = ix4 p 1 b j := funext fun a => Fin.ext (by
    match a with
    | ⟨0, _⟩ => rfl
    | ⟨1, _⟩ => rfl
    | ⟨2, _⟩ => rfl
    | ⟨3, _⟩ => rfl)
  rw [val_main_v50_apply, e4, val_main_v49_apply, e3, val_main_v48_apply, e2]

/-! ## The gates of layer 1 at a row -/

/-- The 512 gate pre-activations of layer 1 at row (p, b): the input product's left operand is layer 0's new
    hidden state of the same row. -/
theorem gates1 (x0 : FVec Ideal S2048x64x2 .f32) (x1 x2 : FVec Ideal S64x2x2048x128 .f32) (x3 : FVec Ideal S512x2 .f32) (x4 : FVec Ideal S512x128 .f32) (x5 x6 : FVec Ideal S512 .f32) (x7 x8 : FVec Ideal S512x128 .f32) (x9 x10 : FVec Ideal S512 .f32) (p : Fin 64) (b : Fin 2048) (q : Fin 512) :
    val_main_v59 (F := Ideal) x0 x1 x2 x3 x4 x5 x6 x7 x8 x9 x10 (ix2 (row p b) q)
      = gate (H1 (Args.ofArrays x0 x1 x2 x3 x4 x5 x6 x7 x8 x9 x10) p b) ((Args.ofArrays x0 x1 x2 x3 x4 x5 x6 x7 x8 x9 x10).h 1 p b)
          (Args.ofArrays x0 x1 x2 x3 x4 x5 x6 x7 x8 x9 x10).W.Wih1 (Args.ofArrays x0 x1 x2 x3 x4 x5 x6 x7 x8 x9 x10).W.Whh1
          (Args.ofArrays x0 x1 x2 x3 x4 x5 x6 x7 x8 x9 x10).W.bih1 (Args.ofArrays x0 x1 x2 x3 x4 x5 x6 x7 x8 x9 x10).W.bhh1 q := by
  have e52l : ∀ k : Fin 128, lidx_main_v52 (ix2 (row p b) q) k = ix2 (row p b) k := fun k => funext fun a => by
    match a with
    | ⟨0, _⟩ => rfl
    | ⟨1, _⟩ => rfl
  have e52r : ∀ k : Fin 128, idx_main_v51 (ridx_main_v52 (ix2 (row p b) q) k) = ix2 q k := fun k => funext fun a => by
    match a with
    | ⟨0, _⟩ => rfl
    | ⟨1, _⟩ => rfl
  have e54l : ∀ k : Fin 128, lidx_main_v54 (ix2 (row p b) q) k = ix2 (row p b) k := fun k => funext fun a => by
    match a with
    | ⟨0, _⟩ => rfl
    | ⟨1, _⟩ => rfl
  have e54r : ∀ k : Fin 128, idx_main_v53 (ridx_main_v54 (ix2 (row p b) q) k) = ix2 q k := fun k => funext fun a => by
    match a with
    | ⟨0, _⟩ => rfl
    | ⟨1, _⟩ => rfl
  have e58 : idx_main_v57 (idx_main_v58 (ix2 (row p b) q)) = ix1 q := funext fun a => by
    match a with
    | ⟨0, _⟩ => rfl
  rw [val_main_v59_apply, val_main_v55_apply, val_main_v52_apply, val_main_v54_apply, val_main_v58_apply,
    val_main_v57_apply, val_main_v56_apply, e58]
  simp only [val_main_v51_apply, val_main_v53_apply, e52l, e52r, e54l, e54r, h1_row x0 x1 x2 x3 x4 x5 x6 x7 x8 x9 x10, h01_row,
    Ideal.addf_def]
  rfl

/-! ## The new cell and hidden states of layer 1 at a row -/

theorem slice_I1 (r : Fin 131072) (j : Fin 128) : idx_main_v60 (ix2 r j) = ix2 r (gI j) := funext fun a => Fin.ext (by
  match a with
  | ⟨0, _⟩ => rfl
  | ⟨1, _⟩ => exact (Nat.zero_add _).symm)
theorem slice_F1 (r : Fin 131072) (j : Fin 128) : idx_main_v61 (ix2 r j) = ix2 r (gF j) := funext fun a => Fin.ext (by
  match a with
  | ⟨0, _⟩ => rfl
  | ⟨1, _⟩ => rfl)
theorem slice_G1 (r : Fin 131072) (j : Fin 128) : idx_main_v62 (ix2 r j) = ix2 r (gG j) := funext fun a => Fin.ext (by
  match a with
  | ⟨0, _⟩ => rfl
  | ⟨1, _⟩ => rfl)
theorem slice_O1 (r : Fin 131072) (j : Fin 128) : idx_main_v63 (ix2 r j) = ix2 r (gO j) := funext fun a => Fin.ext (by
  match a with
  | ⟨0, _⟩ => rfl
  | ⟨1, _⟩ => rfl)

/-- Layer 1's new cell state at row (p, b). -/
theorem c2_row (x0 : FVec Ideal S2048x64x2 .f32) (x1 x2 : FVec Ideal S64x2x2048x128 .f32) (x3 : FVec Ideal S512x2 .f32) (x4 : FVec Ideal S512x128 .f32) (x5 x6 : FVec Ideal S512 .f32) (x7 x8 : FVec Ideal S512x128 .f32) (x9 x10 : FVec Ideal S512 .f32) (p : Fin 64) (b : Fin 2048) (j : Fin 128) :
    val_main_v79 (F := Ideal) x0 x1 x2 x3 x4 x5 x6 x7 x8 x9 x10 (ix2 (row p b) j) = C2 (Args.ofArrays x0 x1 x2 x3 x4 x5 x6 x7 x8 x9 x10) p b j := by
  rw [val_main_v79_apply, val_main_v70_apply, val_main_v69_apply, val_main_v68_apply, val_main_cst_6_apply,
    val_main_v67_apply, val_main_v66_apply, val_main_cst_5_apply, val_main_v65_apply, val_main_v64_apply,
    val_main_v61_apply, slice_F1, val_main_v78_apply, val_main_v76_apply, val_main_v75_apply, val_main_cst_8_apply,
    val_main_v74_apply, val_main_v73_apply, val_main_cst_7_apply, val_main_v72_apply, val_main_v71_apply,
    val_main_v60_apply, slice_I1, val_main_v77_apply, val_main_v62_apply, slice_G1, c01_row]
  simp only [gates1 x0 x1 x2 x3 x4 x5 x6 x7 x8 x9 x10, Ideal.addf_def, Ideal.mulf_def, Ideal.hostDivf_def, Ideal.hostNegf_def,
    Ideal.negf_def, Ideal.hostUnary_exp_def, Ideal.hostUnary_tanh_def, Ideal.ofBits_def, logistic_spelt]
  rfl

/-- Layer 1's new hidden state at row (p, b). -/
theorem h2_row (x0 : FVec Ideal S2048x64x2 .f32) (x1 x2 : FVec Ideal S64x2x2048x128 .f32) (x3 : FVec Ideal S512x2 .f32) (x4 : FVec Ideal S512x128 .f32) (x5 x6 : FVec Ideal S512 .f32) (x7 x8 : FVec Ideal S512x128 .f32) (x9 x10 : FVec Ideal S512 .f32) (p : Fin 64) (b : Fin 2048) (j : Fin 128) :
    val_main_v87 (F := Ideal) x0 x1 x2 x3 x4 x5 x6 x7 x8 x9 x10 (ix2 (row p b) j) = H2 (Args.ofArrays x0 x1 x2 x3 x4 x5 x6 x7 x8 x9 x10) p b j := by
  rw [val_main_v87_apply, val_main_v85_apply, val_main_v84_apply, val_main_cst_10_apply, val_main_v83_apply,
    val_main_v82_apply, val_main_cst_9_apply, val_main_v81_apply, val_main_v80_apply, val_main_v63_apply, slice_O1,
    val_main_v86_apply, c2_row x0 x1 x2 x3 x4 x5 x6 x7 x8 x9 x10]
  simp only [gates1 x0 x1 x2 x3 x4 x5 x6 x7 x8 x9 x10, Ideal.addf_def, Ideal.mulf_def, Ideal.hostDivf_def, Ideal.hostNegf_def,
    Ideal.negf_def, Ideal.hostUnary_exp_def, Ideal.hostUnary_tanh_def, Ideal.ofBits_def, logistic_spelt]
  rfl

end Cert.Lstm.Ref

end
-- ==== Proof.RefSide.lean ====
/-
  The reference's three results are the specification's. The first result is layer 1's new hidden state unfolded
  from rows p · 2048 + b back to (p, b) and transposed to [b, p, j]; the second and third join the two layers' new
  hidden (resp. cell) states along a new layer axis.
-/
import proofs.«168537_j49031346651728_2_alg».proof.Proof.Gen.ReferenceIdeal.Read
import proofs.«168537_j49031346651728_2_alg».proof.Proof.Spec
import proofs.«168537_j49031346651728_2_alg».proof.Proof.RefBase
import proofs.«168537_j49031346651728_2_alg».proof.Proof.RefLayer0
import proofs.«168537_j49031346651728_2_alg».proof.Proof.RefLayer1

noncomputable section

open scoped BigOperators

namespace Cert.Lstm.Ref

open Cert.ReferenceIdeal Cert.ReferenceIdeal.Read Idealize.ShloMosaic Idealize.ShloMosaic.ValueIdx

/-- Element (p, b, j) of a [131072, 128] array cut into [64, 2048, 128] is its element (p·2048 + b, j): the four
    reshapes of the results share this index map. -/
theorem unfold_row (p : Fin 64) (b : Fin 2048) (j : Fin 128) : idx_main_v88 (ix3 p b j) = ix2 (row p b) j :=
  funext fun a => Fin.ext (by
    match a with
    | ⟨0, _⟩ => exact (flat128 p.val b.val j.val j.isLt).1
    | ⟨1, _⟩ => exact (flat128 p.val b.val j.val j.isLt).2)

/-- Adding the unit layer axis: (p, 0, b, j) reads (p, b, j). -/
theorem unit_layer (p : Fin 64) (b : Fin 2048) (j : Fin 128) : idx_main_v92 (ix4 p 0 b j) = ix3 p b j :=
  funext fun a => Fin.ext (by
    match a with
    | ⟨0, _⟩ => rfl
    | ⟨1, _⟩ => rfl
    | ⟨2, _⟩ => rfl)

/-- The first result: [b, p, j] ↦ layer 1's new hidden state of row (p, b). -/
theorem ref_enc (x0 : FVec Ideal S2048x64x2 .f32) (x1 x2 : FVec Ideal S64x2x2048x128 .f32) (x3 : FVec Ideal S512x2 .f32) (x4 : FVec Ideal S512x128 .f32) (x5 x6 : FVec Ideal S512 .f32) (x7 x8 : FVec Ideal S512x128 .f32) (x9 x10 : FVec Ideal S512 .f32) :
    val_main_v89 (F := Ideal) x0 x1 x2 x3 x4 x5 x6 x7 x8 x9 x10 = Cert.Lstm.enc (Cert.Lstm.Args.ofArrays x0 x1 x2 x3 x4 x5 x6 x7 x8 x9 x10) := by
  funext i
  obtain ⟨b, p, j, rfl⟩ : ∃ (b : Fin 2048) (p : Fin 64) (j : Fin 128), i = ix3 b p j := ⟨i 0, i 1, i 2, eq_ix3 i⟩
  have e89 : idx_main_v89 (ix3 b p j) = ix3 p b j := funext fun a => by
    match a with
    | ⟨0, _⟩ => rfl
    | ⟨1, _⟩ => rfl
    | ⟨2, _⟩ => rfl
  rw [val_main_v89_apply, e89, val_main_v88_apply, unfold_row, h2_row x0 x1 x2 x3 x4 x5 x6 x7 x8 x9 x10]
  rfl

/-- The second result: [p, l, b, j] ↦ layer l's new hidden state of row (p, b). -/
theorem ref_hnext (x0 : FVec Ideal S2048x64x2 .f32) (x1 x2 : FVec Ideal S64x2x2048x128 .f32) (x3 : FVec Ideal S512x2 .f32) (x4 : FVec Ideal S512x128 .f32) (x5 x6 : FVec Ideal S512 .f32) (x7 x8 : FVec Ideal S512x128 .f32) (x9 x10 : FVec Ideal S512 .f32) :
    val_main_v94 (F := Ideal) x0 x1 x2 x3 x4 x5 x6 x7 x8 x9 x10 = Cert.Lstm.hnext (Cert.Lstm.Args.ofArrays x0 x1 x2 x3 x4 x5 x6 x7 x8 x9 x10) := by
  funext i
  obtain ⟨p, l, b, j, rfl⟩ : ∃ (p : Fin 64) (l : Fin 2) (b : Fin 2048) (j : Fin 128), i = ix4 p l b j :=
    ⟨i 0, i 1, i 2, i 3, eq_ix4 i⟩
  have e0 : val_main_v92 (F := Ideal) x0 x1 x2 x3 x4 x5 x6 (ix4 p 0 b j) = H1 (Args.ofArrays x0 x1 x2 x3 x4 x5 x6 x7 x8 x9 x10) p b j := by
    rw [val_main_v92_apply, unit_layer, val_main_v90_apply]
    exact (congrArg _ (unfold_row p b j)).trans (h1_row x0 x1 x2 x3 x4 x5 x6 x7 x8 x9 x10 p b j)
  have e1 : val_main_v93 (F := Ideal) x0 x1 x2 x3 x4 x5 x6 x7 x8 x9 x10 (ix4 p 0 b j) = H2 (Args.ofArrays x0 x1 x2 x3 x4 x5 x6 x7 x8 x9 x10) p b j := by
    rw [val_main_v93_apply]
    refine (congrArg _ (unit_layer p b j)).trans ?_
    rw [val_main_v91_apply]
    exact (congrArg _ (unfold_row p b j)).trans (h2_row x0 x1 x2 x3 x4 x5 x6 x7 x8 x9 x10 p b j)
  unfold val_main_v94
  rw [concat_layers, e0, e1]
  rfl

/-- The third result: [p, l, b, j] ↦ layer l's new cell state of row (p, b). -/
theorem ref_cnext (x0 : FVec Ideal S2048x64x2 .f32) (x1 x2 : FVec Ideal S64x2x2048x128 .f32) (x3 : FVec Ideal S512x2 .f32) (x4 : FVec Ideal S512x128 .f32) (x5 x6 : FVec Ideal S512 .f32) (x7 x8 : FVec Ideal S512x128 .f32) (x9 x10 : FVec Ideal S512 .f32) :
    val_main_v99 (F := Ideal) x0 x1 x2 x3 x4 x5 x6 x7 x8 x9 x10 = Cert.Lstm.cnext (Cert.Lstm.Args.ofArrays x0 x1 x2 x3 x4 x5 x6 x7 x8 x9 x10) := by
  funext i
  obtain ⟨p, l, b, j, rfl⟩ : ∃ (p : Fin 64) (l : Fin 2) (b : Fin 2048) (j : Fin 128), i = ix4 p l b j :=
    ⟨i 0, i 1, i 2, i 3, eq_ix4 i⟩
  have e0 : val_main_v97 (F := Ideal) x0 x1 x2 x3 x4 x5 x6 (ix4 p 0 b j) = C1 (Args.ofArrays x0 x1 x2 x3 x4 x5 x6 x7 x8 x9 x10) p b j := by
    rw [val_main_v97_apply]
    refine (congrArg _ (unit_layer p b j)).trans ?_
    rw [val_main_v95_apply]
    exact (congrArg _ (unfold_row p b j)).trans (c1_row x0 x1 x2 x3 x4 x5 x6 x7 x8 x9 x10 p b j)
  have e1 : val_main_v98 (F := Ideal) x0 x1 x2 x3 x4 x5 x6 x7 x8 x9 x10 (ix4 p 0 b j) = C2 (Args.ofArrays x0 x1 x2 x3 x4 x5 x6 x7 x8 x9 x10) p b j := by
    rw [val_main_v98_apply]
    refine (congrArg _ (unit_layer p b j)).trans ?_
    rw [val_main_v96_apply]
    exact (congrArg _ (unfold_row p b j)).trans (c2_row x0 x1 x2 x3 x4 x5 x6 x7 x8 x9 x10 p b j)
  unfold val_main_v99
  rw [concat_layers, e0, e1]
  rfl

end Cert.Lstm.Ref

end
-- ==== Proof.lean ====
/-
  A two-layer LSTM step over 64 × 2048 independent rows: a Pallas kernel on a 64 × 2 grid of blocks of 1024 rows
  against a jnp reference that folds the rows into one axis of 131072.

  On the extended reals both programs compute, for every row (p, b), the same function of that row's input, old
  hidden and cell states and the shared parameters (Proof/Spec.lean): each gate pre-activation is the same two sums
  of products plus the same bias sum, the logistic function is one function whether the kernel's single operation
  or the reference's 1 / (1 + exp(−x)), and a change of float format is the identity. Nothing in the argument needs
  finiteness. The kernel's side reads the generated frame run: what each point writes back is its block of the
  specification (Proof/KernelBody.lean at an index of a block, Proof/KernelInputs.lean for where the blocks sit), the
  blocks tile the three arrays, and the host's last reshape lays the first result out (Proof/KernelEnc.lean,
  KernelHnext.lean, KernelCnext.lean, KernelRun.lean). The reference's side reads its generated run stage by stage
  (Proof/RefBase.lean, RefLayer0.lean, RefLayer1.lean, RefSide.lean). The three frames are the generated ones, and
  the idealization ledger is empty.
-/
import proofs.«168537_j49031346651728_2_alg».proof.Defs
import proofs.«168537_j49031346651728_2_alg».proof.Proof.Gen.Kernel
import proofs.«168537_j49031346651728_2_alg».proof.Proof.Gen.Kernel.Skeleton
import proofs.«168537_j49031346651728_2_alg».proof.Proof.Gen.Kernel.Launch
import proofs.«168537_j49031346651728_2_alg».proof.Proof.Gen.Kernel.Points
import proofs.«168537_j49031346651728_2_alg».proof.Proof.Gen.Kernel.Frame
import proofs.«168537_j49031346651728_2_alg».proof.Proof.Gen.KernelIdeal
import proofs.«168537_j49031346651728_2_alg».proof.Proof.Gen.KernelIdeal.Skeleton
import proofs.«168537_j49031346651728_2_alg».proof.Proof.Gen.KernelIdeal.Launch
import proofs.«168537_j49031346651728_2_alg».proof.Proof.Gen.KernelIdeal.Points
import proofs.«168537_j49031346651728_2_alg».proof.Proof.Gen.KernelIdeal.Frame
import proofs.«168537_j49031346651728_2_alg».proof.Proof.Gen.ReferenceIdeal
import proofs.«168537_j49031346651728_2_alg».proof.Proof.Gen.ReferenceIdeal.Run
import proofs.«168537_j49031346651728_2_alg».proof.Proof.Gen.ReferenceIdeal.Read
import proofs.«168537_j49031346651728_2_alg».proof.Proof.Gen.Pre_finite_inputs
import proofs.«168537_j49031346651728_2_alg».proof.Proof.KernelRun
import proofs.«168537_j49031346651728_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both runs end at the specification's three arrays of the arguments, which agree. -/
theorem algebraic : Cert.algebraic_KernelIdeal_ReferenceIdeal := by
  intro m ρ m' ρ' _ hagree
  refine ⟨fun c => Cert.Lstm.enc (Cert.Lstm.Arr.args m c), fun c => Cert.Lstm.hnext (Cert.Lstm.Arr.args m c),
    fun c => Cert.Lstm.cnext (Cert.Lstm.Arr.args m c), Cert.Lstm.Arr.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2.1.trans ?_, (h c).2.2.2⟩
  · rw [Cert.ReferenceIdeal.Read.val_main_v89_eq, Cert.Lstm.Ref.ref_enc, a0, a1, a2, a3, a4, a5, a6, a7, a8, a9, a10]
    rfl
  · rw [Cert.ReferenceIdeal.Read.val_main_v94_eq, Cert.Lstm.Ref.ref_hnext, a0, a1, a2, a3, a4, a5, a6, a7, a8, a9, a10]
    rfl
  · rw [Cert.ReferenceIdeal.Read.val_main_v99_eq, Cert.Lstm.Ref.ref_cnext, a0, a1, a2, a3, a4, a5, a6, a7, a8, a9, a10]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
